-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_2)) (v1 : (c : Dev Cert.KernelIdeal.nD) → Buf (Elt Ideal) ((c.tc : Thread Cert.KernelIdeal.nD Cert.KernelIdeal.τ).loc Cert.KernelIdeal.main_v4_3)) (v2 : (c : Dev Cert.KernelIdeal.nD) → Buf (Elt Ideal) ((c.tc : Thread Cert.KernelIdeal.nD Cert.KernelIdeal.τ).loc Cert.KernelIdeal.main_v4_1)) (v3 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_2) = v0 c
          ∧ r.2.mem ((c.tc : Thread Cert.KernelIdeal.nD Cert.KernelIdeal.τ).loc Cert.KernelIdeal.main_v4_3) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_v4_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300x512 : Shape := ⟨2, ![300, 512]⟩
abbrev S89700x512 : Shape := ⟨2, ![89700, 512]⟩
abbrev S512x512 : Shape := ⟨2, ![512, 512]⟩
abbrev S512 : Shape := ⟨1, ![512]⟩
abbrev S512x128 : Shape := ⟨2, ![512, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S300x512 : S_.BroadcastsInDim S300x512 (![] : Fin 0 → Fin S300x512.rank)
  reducesTo_S300x512_S_d0_1 : S300x512.ReducesTo [0, 1] S_
  h_S_ : 0 < S_.numel
  bcast_S_S89700x512 : S_.BroadcastsInDim S89700x512 (![] : Fin 0 → Fin S89700x512.rank)
  reducesTo_S89700x512_S_d0_1 : S89700x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S128 .f32) (main_arg8 : FVec F S128x4 .f32) (main_arg9 : FVec F S4 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x4 .f32 := Host.absf main_arg8
  let main_cst_14 : FVec F S_ .f32 := constant S_ .f32 0x7F800000#32
  let main_v40 : FVec F S128x4 .f32 := broadcastInDim S128x4 ![] bcast_S_S128x4 main_cst_14
  let main_v41 : IVec S128x4 1 := cmpf .olt main_v39 main_v40
  let main_c_15 : IVec S_ 1 := constantI S_ 1 1#1
  let main_v42 : IVec S_ 1 := (fun x v => Host.reduce IntOp.andi x v reducesTo_S128x4_S_d0_1 h_S_) main_v41 main_c_15
  let main_v43 : IVec S_ 1 := andi main_v38 main_v42
  let main_v44 : FVec F S4 .f32 := Host.absf main_arg9
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  main_v48

def fn_part1 {F : FTy → Type} [FloatOps F] (main_arg4 : FVec F S512x512 .f32) (main_arg5 : FVec F S512 .f32) (main_arg6 : FVec F S512x128 .f32) (main_arg7 : FVec F S128 .f32) (main_arg8 : FVec F S128x4 .f32) (main_arg9 : FVec F S4 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x128 .f32 := Host.absf main_arg6
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S300x512 .f32) (main_arg1 : FVec F S89700x512 .f32) (main_arg2 : FVec F S512x512 .f32) (main_arg3 : FVec F S512 .f32) (main_arg4 : FVec F S512x512 .f32) (main_arg5 : FVec F S512 .f32) (main_arg6 : FVec F S512x128 .f32) (main_arg7 : FVec F S128 .f32) (main_arg8 : FVec F S128x4 .f32) (main_arg9 : FVec F S4 .f32) : IVec S_ 1 :=
  let main_v0 : FVec F S300x512 .f32 := Host.absf main_arg0
  let main_cst : FVec F S_ .f32 := constant S_ .f32 0x7F800000#32
  let main_v1 : FVec F S300x512 .f32 := broadcastInDim S300x512 ![] bcast_S_S300x512 main_cst
  let main_v2 : IVec S300x512 1 := cmpf .olt main_v0 main_v1
  let main_c : IVec S_ 1 := constantI S_ 1 1#1
  let main_v3 : IVec S_ 1 := (fun x v => Host.reduce IntOp.andi x v reducesTo_S300x512_S_d0_1 h_S_) main_v2 main_c
  let main_v4 : FVec F S89700x512 .f32 := Host.absf main_arg1
  let main_cst_0 : FVec F S_ .f32 := constant S_ .f32 0x7F800000#32
  let main_v5 : FVec F S89700x512 .f32 := broadcastInDim S89700x512 ![] bcast_S_S89700x512 main_cst_0
  let main_v6 : IVec S89700x512 1 := cmpf .olt main_v4 main_v5
  let main_c_1 : IVec S_ 1 := constantI S_ 1 1#1
  let main_v7 : IVec S_ 1 := (fun x v => Host.reduce IntOp.andi x v reducesTo_S89700x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S300x512 : Shape := ⟨2, ![300, 512]⟩
abbrev S89700x512 : Shape := ⟨2, ![89700, 512]⟩
abbrev S512x512 : Shape := ⟨2, ![512, 512]⟩
abbrev S512 : Shape := ⟨1, ![512]⟩
abbrev S512x128 : Shape := ⟨2, ![512, 128]⟩
abbrev S128 : Shape := ⟨1, ![128]⟩
abbrev S128x4 : Shape := ⟨2, ![128, 4]⟩
abbrev S4 : Shape := ⟨1, ![4]⟩
abbrev S1x512 : Shape := ⟨2, ![1, 512]⟩
abbrev S1x128 : Shape := ⟨2, ![1, 128]⟩
abbrev S1x4 : Shape := ⟨2, ![1, 4]⟩
abbrev S89700x4 : Shape := ⟨2, ![89700, 4]⟩
abbrev S4x89700 : Shape := ⟨2, ![4, 89700]⟩
abbrev S2048x512 : Shape := ⟨2, ![2048, 512]⟩
abbrev S2048x4 : Shape := ⟨2, ![2048, 4]⟩
abbrev S4x2048 : Shape := ⟨2, ![4, 2048]⟩
abbrev S2048x128 : Shape := ⟨2, ![2048, 128]⟩
abbrev S2048 : Shape := ⟨1, ![2048]⟩
abbrev S2048x1 : Shape := ⟨2, ![2048, 1]⟩

abbrev nBuf : Space → Nat
  | .hbm => 18
  | .vmem => 18
  | .smem => 0
  | _ => 0

abbrev bufTy : (tb : Table) → Fin (tcTables nBuf tb) → BufTy
  | .hbm, ⟨0, _⟩ => ⟨S300x512, .f32⟩
  | .hbm, ⟨1, _⟩ => ⟨S89700x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S128x4, .f32⟩
  | .hbm, ⟨9, _⟩ => ⟨S4, .f32⟩
  | .hbm, ⟨10, _⟩ => ⟨S1x512, .f32⟩
  | .hbm, ⟨11, _⟩ => ⟨S1x512, .f32⟩
  | .hbm, ⟨12, _⟩ => ⟨S1x128, .f32⟩
  | .hbm, ⟨13, _⟩ => ⟨S1x4, .f32⟩
  | .hbm, ⟨14, _⟩ => ⟨S89700x512, .f32⟩
  | .hbm, ⟨15, _⟩ => ⟨S89700x4, .f32⟩
  | .hbm, ⟨16, _⟩ => ⟨S4x89700, .f32⟩
  | .hbm, ⟨17, _⟩ => ⟨S4x89700, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x128, .f32⟩
  | .local _ .vmem, ⟨7, _⟩ => ⟨S1x128, .f32⟩
  | .local _ .vmem, ⟨8, _⟩ => ⟨S128x4, .f32⟩
  | .local _ .vmem, ⟨9, _⟩ => ⟨S1x4, .f32⟩
  | .local _ .vmem, ⟨10, _⟩ => ⟨S2048x512, .f32⟩
  | .local _ .vmem, ⟨11, _⟩ => ⟨S2048x512, .f32⟩
  | .local _ .vmem, ⟨12, _⟩ => ⟨S2048x4, .f32⟩
  | .local _ .vmem, ⟨13, _⟩ => ⟨S2048x4, .f32⟩
  | .local _ .vmem, ⟨14, _⟩ => ⟨S4x2048, .f32⟩
  | .local _ .vmem, ⟨15, _⟩ => ⟨S4x2048, .f32⟩
  | .local _ .vmem, ⟨16, _⟩ => ⟨S4x2048, .f32⟩
  | .local _ .vmem, ⟨17, _⟩ => ⟨S4x2048, .f32⟩
  | _, _ => ⟨S300x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x4 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S512_S1x512 : S512.ShapeCasts S1x512
  shapeCasts_S128_S1x128 : S128.ShapeCasts S1x128
  shapeCasts_S4_S1x4 : S4.ShapeCasts S1x4
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2048x4 : S1x4.Broadcasts S2048x4
  reduces_S2048x4_S2048 : S2048x4.Reduces [1] S2048
  shapeCasts_S2048_S2048x1 : S2048.ShapeCasts S2048x1
  broadcasts_S2048x1_S2048x4 : S2048x1.Broadcasts S2048x4
  inb_S2048x4_S2048x4_0_0 : ∀ a, (![0, 0] : Fin 2 → Nat) a + S2048x4.size a ≤ S2048x4.size a
  h_S2048x4 : 0 < S2048x4.numel
  transposes_S2048x4_p1_0_S4x2048 : S2048x4.Transposes [1, 0] S4x2048
  iota_S4x2048_d0_w32 : S4x2048.Iotas .tc 32 [0]
  inb_S4x2048_S4x2048_0_0 : ∀ a, (![0, 0] : Fin 2 → Nat) a + S4x2048.size a ≤ S4x2048.size a
  h_S4x2048 : 0 < S4x2048.numel
  dot_S2048x512_S512x512_S2048x512_1_0_0_1_n_n_wf : DotDims.WF S2048x512 S512x512 S2048x512 [1] [0] [0] [1] [] []
  dot_S2048x512_S512x128_S2048x128_1_0_0_1_n_n_wf : DotDims.WF S2048x512 S512x128 S2048x128 [1] [0] [0] [1] [] []
  dot_S2048x128_S128x4_S2048x4_1_0_0_1_n_n_wf : DotDims.WF S2048x128 S128x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x512.size a < S89700x512.size a
  hwx0_0 : ∀ i : grid0.Coords, EltTy.bits .f32 = 32 ∨ (Rect.unit (s := S89700x512) (fun a => cc0_transform_0 i a * S2048x512.size a) (fun a => (Pipeline.Clip.of (cc0_transform_0 i a) (S2048x512.size a) (S89700x512.size a)).extent (S2048x512.size a)) fun a => Pipeline.Clip.inb (Pipeline.Clip.ok_of (hstart0_0 i a))).WholeWords (EltTy.packing .f32)
  hwxs0_0 : ∀ i : grid0.Coords, EltTy.bits .f32 = 32 ∨ (Rect.unit (s := S2048x512) (fun _ => 0) (fun a => (Pipeline.Clip.of (cc0_transform_0 i a) (S2048x512.size a) (S89700x512.size a)).extent (S2048x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x4.size a ≤ S128x4.size a
  hwx0_7 : ∀ i : grid0.Coords, EltTy.bits .f32 = 32 ∨ (Rect.block (s := S128x4) S128x4.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4.size a ≤ S1x4.size a
  hwx0_8 : ∀ i : grid0.Coords, EltTy.bits .f32 = 32 ∨ (Rect.block (s := S1x4) S1x4.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S2048x512.size a < S89700x512.size a
  hwx0_9 : ∀ i : grid0.Coords, EltTy.bits .f32 = 32 ∨ (Rect.unit (s := S89700x512) (fun a => cc0_transform_9 i a * S2048x512.size a) (fun a => (Pipeline.Clip.of (cc0_transform_9 i a) (S2048x512.size a) (S89700x512.size a)).extent (S2048x512.size a)) fun a => Pipeline.Clip.inb (Pipeline.Clip.ok_of (hstart0_9 i a))).WholeWords (EltTy.packing .f32)
  hwxs0_9 : ∀ i : grid0.Coords, EltTy.bits .f32 = 32 ∨ (Rect.unit (s := S2048x512) (fun _ => 0) (fun a => (Pipeline.Clip.of (cc0_transform_9 i a) (S2048x512.size a) (S89700x512.size a)).extent (S2048x512.size a)) fun a => (Nat.zero_add _).trans_le (Pipeline.Clip.extent_le (Pipeline.Clip.ok_of (hstart0_9 i a)))).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hstart0_10 : ∀ (i : grid0.Coords) a, cc0_transform_10 i a * S2048x4.size a < S89700x4.size a
  hwx0_10 : ∀ i : grid0.Coords, EltTy.bits .f32 = 32 ∨ (Rect.unit (s := S89700x4) (fun a => cc0_transform_10 i a * S2048x4.size a) (fun a => (Pipeline.Clip.of (cc0_transform_10 i a) (S2048x4.size a) (S89700x4.size a)).extent (S2048x4.size a)) fun a => Pipeline.Clip.inb (Pipeline.Clip.ok_of (hstart0_10 i a))).WholeWords (EltTy.packing .f32)
  hwxs0_10 : ∀ i : grid0.Coords, EltTy.bits .f32 = 32 ∨ (Rect.unit (s := S2048x4) (fun _ => 0) (fun a => (Pipeline.Clip.of (cc0_transform_10 i a) (S2048x4.size a) (S89700x4.size a)).extent (S2048x4.size a)) fun a => (Nat.zero_add _).trans_le (Pipeline.Clip.extent_le (Pipeline.Clip.ok_of (hstart0_10 i a)))).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hstart0_11 : ∀ (i : grid0.Coords) a, cc0_transform_11 i a * S4x2048.size a < S4x89700.size a
  hwx0_11 : ∀ i : grid0.Coords, EltTy.bits .f32 = 32 ∨ (Rect.unit (s := S4x89700) (fun a => cc0_transform_11 i a * S4x2048.size a) (fun a => (Pipeline.Clip.of (cc0_transform_11 i a) (S4x2048.size a) (S4x89700.size a)).extent (S4x2048.size a)) fun a => Pipeline.Clip.inb (Pipeline.Clip.ok_of (hstart0_11 i a))).WholeWords (EltTy.packing .f32)
  hwxs0_11 : ∀ i : grid0.Coords, EltTy.bits .f32 = 32 ∨ (Rect.unit (s := S4x2048) (fun _ => 0) (fun a => (Pipeline.Clip.of (cc0_transform_11 i a) (S4x2048.size a) (S4x89700.size a)).extent (S4x2048.size a)) fun a => (Nat.zero_add _).trans_le (Pipeline.Clip.extent_le (Pipeline.Clip.ok_of (hstart0_11 i a)))).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hstart0_12 : ∀ (i : grid0.Coords) a, cc0_transform_12 i a * S4x2048.size a < S4x89700.size a
  hwx0_12 : ∀ i : grid0.Coords, EltTy.bits .f32 = 32 ∨ (Rect.unit (s := S4x89700) (fun a => cc0_transform_12 i a * S4x2048.size a) (fun a => (Pipeline.Clip.of (cc0_transform_12 i a) (S4x2048.size a) (S4x89700.size a)).extent (S4x2048.size a)) fun a => Pipeline.Clip.inb (Pipeline.Clip.ok_of (hstart0_12 i a))).WholeWords (EltTy.packing .f32)
  hwxs0_12 : ∀ i : grid0.Coords, EltTy.bits .f32 = 32 ∨ (Rect.unit (s := S4x2048) (fun _ => 0) (fun a => (Pipeline.Clip.of (cc0_transform_12 i a) (S4x2048.size a) (S4x89700.size a)).extent (S4x2048.size a)) fun a => (Nat.zero_add _).trans_le (Pipeline.Clip.extent_le (Pipeline.Clip.ok_of (hstart0_12 i a)))).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x128_S128x4_S2048x4_1_0_0_1_n_n : DotDims S2048x128 S128x4 S2048x4 where
  lhsContracting := [1]
  rhsContracting := [0]
  lhsNonContracting := [0]
  rhsNonContracting := [1]
  lhsBatch := []
  rhsBatch := []
  wf := dot_S2048x128_S128x4_S2048x4_1_0_0_1_n_n_wf

abbrev win0_0 : Pipeline.Window sig grid0 :=
  Pipeline.Window.ofSpecClip (Memref.whole main_arg1) S2048x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpecClip (Memref.whole main_v4_0) S2048x512.size cc0_transform_9 reads0_9 true false 2 stage0_9 sem0_9
    hrank0 hreads0_9 hstart0_9 nbuf0_9 (Memref.isWhole_whole _) hwx0_9 hwxs0_9 hstage0_9

abbrev win0_10 : Pipeline.Window sig grid0 :=
  Pipeline.Window.ofSpecClip (Memref.whole main_v4_1) S2048x4.size cc0_transform_10 reads0_10 true false 2 stage0_10 sem0_10
    hrank0 hreads0_10 hstart0_10 nbuf0_10 (Memref.isWhole_whole _) hwx0_10 hwxs0_10 hstage0_10

abbrev win0_11 : Pipeline.Window sig grid0 :=
  Pipeline.Window.ofSpecClip (Memref.whole main_v4_2) S4x2048.size cc0_transform_11 reads0_11 true false 2 stage0_11 sem0_11
    hrank0 hreads0_11 hstart0_11 nbuf0_11 (Memref.isWhole_whole _) hwx0_11 hwxs0_11 hstage0_11

abbrev win0_12 : Pipeline.Window sig grid0 :=
  Pipeline.Window.ofSpecClip (Memref.whole main_v4_3) S4x2048.size cc0_transform_12 reads0_12 true false 2 stage0_12 sem0_12
    hrank0 hreads0_12 hstart0_12 nbuf0_12 (Memref.isWhole_whole _) hwx0_12 hwxs0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S300x512 : Shape := ⟨2, ![300, 512]⟩
abbrev S89700x512 : Shape := ⟨2, ![89700, 512]⟩
abbrev S512x512 : Shape := ⟨2, ![512, 512]⟩
abbrev S512 : Shape := ⟨1, ![512]⟩
abbrev S512x128 : Shape := ⟨2, ![512, 128]⟩
abbrev S128 : Shape := ⟨1, ![128]⟩
abbrev S128x4 : Shape := ⟨2, ![128, 4]⟩
abbrev S4 : Shape := ⟨1, ![4]⟩
abbrev S1x512 : Shape := ⟨2, ![1, 512]⟩
abbrev S_ : Shape := ⟨0, ![]⟩
abbrev S89700x128 : Shape := ⟨2, ![89700, 128]⟩
abbrev S1x128 : Shape := ⟨2, ![1, 128]⟩
abbrev S89700x4 : Shape := ⟨2, ![89700, 4]⟩
abbrev S1x4 : Shape := ⟨2, ![1, 4]⟩
abbrev S89700 : Shape := ⟨1, ![89700]⟩
abbrev S89700x1 : Shape := ⟨2, ![89700, 1]⟩
abbrev S1x89700 : Shape := ⟨2, ![1, 89700]⟩
abbrev S4x89700 : Shape := ⟨2, ![4, 89700]⟩

abbrev nBuf : Space → Nat
  | .hbm => 82
  | .vmem => 0
  | .smem => 0
  | _ => 0

abbrev bufTy : (tb : Table) → Fin (tcTables nBuf tb) → BufTy
  | .hbm, ⟨0, _⟩ => ⟨S300x512, .f32⟩
  | .hbm, ⟨1, _⟩ => ⟨S89700x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S128x4, .f32⟩
  | .hbm, ⟨9, _⟩ => ⟨S4, .f32⟩
  | .hbm, ⟨10, _⟩ => ⟨S89700x512, .f32⟩
  | .hbm, ⟨11, _⟩ => ⟨S1x512, .f32⟩
  | .hbm, ⟨12, _⟩ => ⟨S89700x512, .f32⟩
  | .hbm, ⟨13, _⟩ => ⟨S89700x512, .f32⟩
  | .hbm, ⟨14, _⟩ => ⟨S_, .f32⟩
  | .hbm, ⟨15, _⟩ => ⟨S89700x512, .f32⟩
  | .hbm, ⟨16, _⟩ => ⟨S89700x512, .f32⟩
  | .hbm, ⟨17, _⟩ => ⟨S89700x512, .f32⟩
  | .hbm, ⟨18, _⟩ => ⟨S1x512, .f32⟩
  | .hbm, ⟨19, _⟩ => ⟨S89700x512, .f32⟩
  | .hbm, ⟨20, _⟩ => ⟨S89700x512, .f32⟩
  | .hbm, ⟨21, _⟩ => ⟨S89700x128, .f32⟩
  | .hbm, ⟨22, _⟩ => ⟨S1x128, .f32⟩
  | .hbm, ⟨23, _⟩ => ⟨S89700x128, .f32⟩
  | .hbm, ⟨24, _⟩ => ⟨S89700x128, .f32⟩
  | .hbm, ⟨25, _⟩ => ⟨S_, .f32⟩
  | .hbm, ⟨26, _⟩ => ⟨S89700x128, .f32⟩
  | .hbm, ⟨27, _⟩ => ⟨S89700x128, .f32⟩
  | .hbm, ⟨28, _⟩ => ⟨S89700x4, .f32⟩
  | .hbm, ⟨29, _⟩ => ⟨S1x4, .f32⟩
  | .hbm, ⟨30, _⟩ => ⟨S89700x4, .f32⟩
  | .hbm, ⟨31, _⟩ => ⟨S89700x4, .f32⟩
  | .hbm, ⟨32, _⟩ => ⟨S_, .f32⟩
  | .hbm, ⟨33, _⟩ => ⟨S89700, .f32⟩
  | .hbm, ⟨34, _⟩ => ⟨S_, .f32⟩
  | .hbm, ⟨35, _⟩ => ⟨S89700, .f32⟩
  | .hbm, ⟨36, _⟩ => ⟨S89700, .f32⟩
  | .hbm, ⟨37, _⟩ => ⟨S89700x1, .f32⟩
  | .hbm, ⟨38, _⟩ => ⟨S89700x4, .f32⟩
  | .hbm, ⟨39, _⟩ => ⟨S89700x4, .f32⟩
  | .hbm, ⟨40, _⟩ => ⟨S89700x4, .f32⟩
  | .hbm, ⟨41, _⟩ => ⟨S_, .f32⟩
  | .hbm, ⟨42, _⟩ => ⟨S89700, .f32⟩
  | .hbm, ⟨43, _⟩ => ⟨S89700x1, .f32⟩
  | .hbm, ⟨44, _⟩ => ⟨S89700x4, .f32⟩
  | .hbm, ⟨45, _⟩ => ⟨S89700x4, .f32⟩
  | .hbm, ⟨46, _⟩ => ⟨S89700x1, .f32⟩
  | .hbm, ⟨47, _⟩ => ⟨S89700, .f32⟩
  | .hbm, ⟨48, _⟩ => ⟨S_, .f32⟩
  | .hbm, ⟨49, _⟩ => ⟨S89700, .f32⟩
  | .hbm, ⟨50, _⟩ => ⟨S89700, .f32⟩
  | .hbm, ⟨51, _⟩ => ⟨S89700x1, .f32⟩
  | .hbm, ⟨52, _⟩ => ⟨S89700, .f32⟩
  | .hbm, ⟨53, _⟩ => ⟨S89700x1, .f32⟩
  | .hbm, ⟨54, _⟩ => ⟨S89700, .f32⟩
  | .hbm, ⟨55, _⟩ => ⟨S89700x1, .f32⟩
  | .hbm, ⟨56, _⟩ => ⟨S89700, .f32⟩
  | .hbm, ⟨57, _⟩ => ⟨S1x89700, .f32⟩
  | .hbm, ⟨58, _⟩ => ⟨S1x89700, .f32⟩
  | .hbm, ⟨59, _⟩ => ⟨S1x89700, .f32⟩
  | .hbm, ⟨60, _⟩ => ⟨S1x89700, .f32⟩
  | .hbm, ⟨61, _⟩ => ⟨S4x89700, .f32⟩
  | .hbm, ⟨62, _⟩ => ⟨S_, .f32⟩
  | .hbm, ⟨63, _⟩ => ⟨S4x89700, .f32⟩
  | .hbm, ⟨64, _⟩ => ⟨S4x89700, .i1⟩
  | .hbm, ⟨65, _⟩ => ⟨S_, .f32⟩
  | .hbm, ⟨66, _⟩ => ⟨S4x89700, .f32⟩
  | .hbm, ⟨67, _⟩ => ⟨S4x89700, .i1⟩
  | .hbm, ⟨68, _⟩ => ⟨S_, .f32⟩
  | .hbm, ⟨69, _⟩ => ⟨S4x89700, .f32⟩
  | .hbm, ⟨70, _⟩ => ⟨S4x89700, .f32⟩
  | .hbm, ⟨71, _⟩ => ⟨S_, .f32⟩
  | .hbm, ⟨72, _⟩ => ⟨S4x89700, .f32⟩
  | .hbm, ⟨73, _⟩ => ⟨S4x89700, .f32⟩
  | .hbm, ⟨74, _⟩ => ⟨S_, .f32⟩
  | .hbm, ⟨75, _⟩ => ⟨S_, .f32⟩
  | .hbm, ⟨76, _⟩ => ⟨S4x89700, .f32⟩
  | .hbm, ⟨77, _⟩ => ⟨S4x89700, .f32⟩
  | .hbm, ⟨78, _⟩ => ⟨S_, .f32⟩
  | .hbm, ⟨79, _⟩ => ⟨S_, .f32⟩
  | .hbm, ⟨80, _⟩ => ⟨S4x89700, .f32⟩
  | .hbm, ⟨81, _⟩ => ⟨S4x89700, .f32⟩
  | _, _ => ⟨S300x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_3 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_call2_v0 : Ref sig .tc := ⟨.hbm, 75, rfl⟩
abbrev main_call2_v1 : Ref sig .tc := ⟨.hbm, 76, rfl⟩
abbrev main_v52 : Ref sig .tc := ⟨.hbm, 77, rfl⟩
abbrev main_cst_8 : Ref sig .tc := ⟨.hbm, 78, rfl⟩
abbrev main_call3_v0 : Ref sig .tc := ⟨.hbm, 79, rfl⟩
abbrev main_call3_v1 : Ref sig .tc := ⟨.hbm, 80, rfl⟩
abbrev main_v53 : Ref sig .tc := ⟨.hbm, 81, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S89700x512_0_1 : S1x512.BroadcastsInDim S89700x512 (![0, 1] : Fin 2 → Fin S89700x512.rank)
  bcast_S_S89700x512 : S_.BroadcastsInDim S89700x512 (![] : Fin 0 → Fin S89700x512.rank)
  bcast_S128_S1x128_1 : S128.BroadcastsInDim S1x128 (![1] : Fin 1 → Fin S1x128.rank)
  bcast_S1x128_S89700x128_0_1 : S1x128.BroadcastsInDim S89700x128 (![0, 1] : Fin 2 → Fin S89700x128.rank)
  bcast_S_S89700x128 : S_.BroadcastsInDim S89700x128 (![] : Fin 0 → Fin S89700x128.rank)
  bcast_S4_S1x4_1 : S4.BroadcastsInDim S1x4 (![1] : Fin 1 → Fin S1x4.rank)
  bcast_S1x4_S89700x4_0_1 : S1x4.BroadcastsInDim S89700x4 (![0, 1] : Fin 2 → Fin S89700x4.rank)
  reducesTo_S89700x4_S89700_d1 : S89700x4.ReducesTo [1] S89700
  h_S_ : 0 < S_.numel
  bcast_S_S89700 : S_.BroadcastsInDim S89700 (![] : Fin 0 → Fin S89700.rank)
  bcast_S89700_S89700x1_0 : S89700.BroadcastsInDim S89700x1 (![0] : Fin 1 → Fin S89700x1.rank)
  bcast_S89700x1_S89700x4_0_1 : S89700x1.BroadcastsInDim S89700x4 (![0, 1] : Fin 2 → Fin S89700x4.rank)
  slices_S89700x4_S89700x1_0_0 : S89700x4.Slices ![0, 0] S89700x1
  shapeCasts_S89700x1_S89700 : S89700x1.ShapeCasts S89700
  slices_S89700x4_S89700x1_0_1 : S89700x4.Slices ![0, 1] S89700x1
  slices_S89700x4_S89700x1_0_2 : S89700x4.Slices ![0, 2] S89700x1
  slices_S89700x4_S89700x1_0_3 : S89700x4.Slices ![0, 3] S89700x1
  bcast_S89700_S1x89700_1 : S89700.BroadcastsInDim S1x89700 (![1] : Fin 1 → Fin S1x89700.rank)
  concatenates_S1x89700_S1x89700_S1x89700_S1x89700_S4x89700_d0 : Shape.Concatenates [S1x89700, S1x89700, S1x89700, S1x89700] S4x89700 0
  bcast_S_S4x89700 : S_.BroadcastsInDim S4x89700 (![] : Fin 0 → Fin S4x89700.rank)
  dot_S89700x512_S512x512_S89700x512_1_0_0_1_n_n_wf : DotDims.WF S89700x512 S512x512 S89700x512 [1] [0] [0] [1] [] []
  dot_S89700x512_S512x128_S89700x128_1_0_0_1_n_n_wf : DotDims.WF S89700x512 S512x128 S89700x128 [1] [0] [0] [1] [] []
  dot_S89700x128_S128x4_S89700x4_1_0_0_1_n_n_wf : DotDims.WF S89700x128 S128x4 S89700x4 [1] [0] [0] [1] [] []

variable [Facts₀]

def dot_S89700x512_S512x512_S89700x512_1_0_0_1_n_n : DotDims S89700x512 S512x512 S89700x512 where
  lhsContracting := [1]
  rhsContracting := [0]
  lhsNonContracting := [0]
  rhsNonContracting := [1]
  lhsBatch := []
  rhsBatch := []
  wf := dot_S89700x512_S512x512_S89700x512_1_0_0_1_n_n_wf
def dot_S89700x512_S512x128_S89700x128_1_0_0_1_n_n : DotDims S89700x512 S512x128 S89700x128 where
  lhsContracting := [1]
  rhsContracting := [0]
  lhsNonContracting := [0]
  rhsNonContracting := [1]
  lhsBatch := []
  rhsBatch := []
  wf := dot_S89700x512_S512x128_S89700x128_1_0_0_1_n_n_wf
def dot_S89700x128_S128x4_S89700x4_1_0_0_1_n_n : DotDims S89700x128 S128x4 S89700x4 where
  lhsContracting := [1]
  rhsContracting := [0]
  lhsNonContracting := [0]
  rhsNonContracting := [1]
  lhsBatch := []
  rhsBatch := []
  wf := dot_S89700x128_S128x4_S89700x4_1_0_0_1_n_n_wf

class Facts : Prop extends Facts₀ where

variable [Facts]
-- ==== Proof.BodyBits.lean ====
/-
  The kernel's body, run once on whole staging buffers, at any float instance.

  The body reads nine buffers whole (a tile of 2048 feature rows and the eight weight and bias
  arrays), computes, and stores four buffers whole: the tile's edge embeddings, its type
  probabilities, and the weights and gated weights transposed to channel-major. Nothing it
  stores depends on what the four output buffers held, and the nine inputs are left as found.
  So the state after the body is a function of the nine inputs' contents alone: each output
  buffer holds the value its one store wrote, as a pure term over the loads.
-/
import proofs.«174127_j84610855731459_2_alg».proof.Proof.Gen.Kernel.Frame
import proofs.«174127_j84610855731459_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and every store is of a whole staging buffer -/

abbrev rX : Rect S2048x512 := Rect.unit (s := S2048x512) ![0, 0] S2048x512.size inb_S2048x512_S2048x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rWt1 : Rect S512x128 := Rect.unit (s := S512x128) ![0, 0] S512x128.size inb_S512x128_S512x128_0_0
abbrev rBt1 : Rect S1x128 := Rect.unit (s := S1x128) ![0, 0] S1x128.size inb_S1x128_S1x128_0_0
abbrev rWt2 : Rect S128x4 := Rect.unit (s := S128x4) ![0, 0] S128x4.size inb_S128x4_S128x4_0_0
abbrev rBt2 : Rect S1x4 := Rect.unit (s := S1x4) ![0, 0] S1x4.size inb_S1x4_S1x4_0_0
abbrev rP : Rect S2048x4 := Rect.unit (s := S2048x4) ![0, 0] S2048x4.size inb_S2048x4_S2048x4_0_0
abbrev rC : Rect S4x2048 := Rect.unit (s := S4x2048) ![0, 0] S4x2048.size inb_S4x2048_S4x2048_0_0

/-! ## What the body leaves in each output buffer, from what the nine input buffers hold -/

/-- The four logits of every row of the tile, before the last bias. -/
def logits (x0 : Vec F S2048x512 .f32) (x1 : Vec F S512x512 .f32) (x2 : Vec F S1x512 .f32) (x3 : Vec F S512x512 .f32)
    (x4 : Vec F S1x512 .f32) (x5 : Vec F S512x128 .f32) (x6 : Vec F S1x128 .f32) (x7 : Vec F S128x4 .f32) : FVec F S2048x4 .f32 :=
  k0_pay2 (View.ld x0 rX) (View.ld x1 rW) (View.ld x2 rB) (View.ld x3 rW) (View.ld x4 rB) (View.ld x5 rWt1) (View.ld x6 rBt1) (View.ld x7 rWt2)

/-- The edge-embedding buffer: its one whole store. -/
def outEdge (x0 : Vec F S2048x512 .f32) (x1 : Vec F S512x512 .f32) (x2 : Vec F S1x512 .f32) (x3 : Vec F S512x512 .f32)
    (x4 : Vec F S1x512 .f32) : Vec F S2048x512 .f32 :=
  View.canon [⟨rX, k0_pay1 (View.ld x0 rX) (View.ld x1 rW) (View.ld x2 rB) (View.ld x3 rW) (View.ld x4 rB)⟩]

/-- The probabilities' buffer. -/
def outType (z : FVec F S2048x4 .f32) (x8 : Vec F S1x4 .f32) : Vec F S2048x4 .f32 :=
  View.canon [⟨rP, k0_pay3 z (View.ld x8 rBt2)⟩]

/-- The weights' buffer (channel-major). -/
def outW (z : FVec F S2048x4 .f32) (x8 : Vec F S1x4 .f32) : Vec F S4x2048 .f32 :=
  View.canon [⟨rC, k0_pay4 z (View.ld x8 rBt2)⟩]

/-- The gated weights' buffer. -/
def outG (z : FVec F S2048x4 .f32) (x8 : Vec F S1x4 .f32) : Vec F S4x2048 .f32 :=
  View.canon [⟨rC, k0_pay5 z (View.ld x8 rBt2)⟩]

theorem coverEdge (p0 : Vec F S2048x512 .f32) (y : S2048x512.Idx) :
    ∃ pc ∈ ([⟨rX, p0⟩] : List (View.Piece (Elt F) S2048x512 .f32)), y ∈ pc.1.set :=
  View.cover_of_tiled [⟨rX, p0⟩] S2048x512.size (by rfl) y
theorem coverP (p0 : Vec F S2048x4 .f32) (y : S2048x4.Idx) :
    ∃ pc ∈ ([⟨rP, p0⟩] : List (View.Piece (Elt F) S2048x4 .f32)), y ∈ pc.1.set :=
  View.cover_of_tiled [⟨rP, p0⟩] S2048x4.size (by rfl) y
theorem coverC (p0 : Vec F S4x2048 .f32) (y : S4x2048.Idx) :
    ∃ pc ∈ ([⟨rC, p0⟩] : List (View.Piece (Elt F) S4x2048 .f32)), y ∈ pc.1.set :=
  View.cover_of_tiled [⟨rC, p0⟩] S4x2048.size (by rfl) y

set_option maxHeartbeats 4000000 in
/-- The body on whole staging buffers: the nine inputs' at what they hold, the four outputs' at anything. It runs to
    the continuation holding the inputs' as they were and each output's at its one store's payload. -/
theorem sound_kernel (c : Dev nD) (E : Set ℕ) (i : grid0.Coords)
    (arg1 : Memref sig .tc .vmem S2048x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S512x128 .f32) (harg6 : arg6.IsWhole)
    (arg7 : Memref sig .tc .vmem S1x128 .f32) (harg7 : arg7.IsWhole) (arg8 : Memref sig .tc .vmem S128x4 .f32) (harg8 : arg8.IsWhole)
    (arg9 : Memref sig .tc .vmem S1x4 .f32) (harg9 : arg9.IsWhole) (arg10 : Memref sig .tc .vmem S2048x512 .f32) (harg10 : arg10.IsWhole)
    (arg11 : Memref sig .tc .vmem S2048x4 .f32) (harg11 : arg11.IsWhole) (arg12 : Memref sig .tc .vmem S4x2048 .f32) (harg12 : arg12.IsWhole)
    (arg13 : Memref sig .tc .vmem S4x2048 .f32) (harg13 : arg13.IsWhole)
    (x0 : Vec F S2048x512 .f32) (x1 : Vec F S512x512 .f32) (x2 : Vec F S1x512 .f32) (x3 : Vec F S512x512 .f32) (x4 : Vec F S1x512 .f32)
    (x5 : Vec F S512x128 .f32) (x6 : Vec F S1x128 .f32) (x7 : Vec F S128x4 .f32) (x8 : Vec F S1x4 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (outEdge x0 x1 x2 x3 x4)
            ∗ owns (c : Thread nD τ) arg11 fullShare (outType (logits x0 x1 x2 x3 x4 x5 x6 x7) x8)
            ∗ owns (c : Thread nD τ) arg12 fullShare (outW (logits x0 x1 x2 x3 x4 x5 x6 x7) x8)
            ∗ owns (c : Thread nD τ) arg13 fullShare (outG (logits x0 x1 x2 x3 x4 x5 x6 x7) x8)) -∗ K ⟨⟩))
      ⊢ wp frame (wpE (defs₀ (F := F)) Variants.none c none) E
          (cc0__mlp2_kernel i arg1 harg1 arg2 harg2 arg3 harg3 arg4 harg4 arg5 harg5 arg6 harg6 arg7 harg7 arg8 harg8 arg9 harg9
            arg10 harg10 arg11 harg11 arg12 harg12 arg13 harg13) K := by
  simp only [cc0__mlp2_kernel_eq_skeleton]; unfold cc0__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverEdge _)
  isplitl [H10]
  · iexists _; isplitr
    swap; · iexact H10
    ipureintro
    exact View.read_writes_eq_canon _ _ _ (coverP _)
  isplitl [H11]
  · iexists _; isplitr
    swap; · iexact H11
    ipureintro
    exact View.read_writes_eq_canon _ _ _ (coverC _)
  iexists _; isplitr
  swap; · iexact H12
  ipureintro
  exact View.read_writes_eq_canon _ _ _ (coverC _)

end Cert.Kernel.Body

end
-- ==== Proof.TilesBits.lean ====
/-
  The pipeline around the body: what each staging buffer holds at every grid point, and the frame.

  The grid has 44 points; point `t` works on feature rows `2048·t … 2048·t + 2047`. The array has
  89700 rows, so the last tile overhangs it by 412 rows: its fetch fills only the first 1636
  rows of the buffer and the rest holds words nothing names; its write-backs move only the part
  inside the arrays. The eight weight and bias arrays are fetched once and found unchanged at
  every point.

  After the body the feature buffer holds what it held; the proof data names it as the tile's
  rows inside the array filled out with the zero word, which is all a window with overhanging
  blocks is asked about. The four output buffers hold the body's four stores computed from that
  buffer.

  For the frame nothing is asked of the outputs' contents, so their windows are forgotten: the
  body is handed them at any contents and hands them back at any contents. The run then ends
  with every input array at its entry contents, and every other argument untouched.
-/
import proofs.«174127_j84610855731459_2_alg».proof.Proof.BodyBits

set_option maxRecDepth 16384

noncomputable section

namespace Cert.Kernel.Tiles

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The feature tile of point `t` as a whole buffer: its rows inside the array, the zero word on the rows past the
    array's end (only the last tile has any). -/
def xtile (c : Dev nD) (t : Fin cfg0.N) : S2048x512.Idx → Elt F .f32 :=
  win0_0.fill (grid0.coords t) (fun _ => Scalar.ofBits .f32 0#32) (iblk m c 0 t)

/-- The tile's logits before the last bias. -/
def ztile (c : Dev nD) (t : Fin cfg0.N) : FVec F S2048x4 .f32 :=
  logits (xtile m c t) (iblk m c 1 t) (iblk m c 2 t) (iblk m c 3 t) (iblk m c 4 t) (iblk m c 5 t) (iblk m c 6 t) (iblk m c 7 t)

/-- The proof data of the pipeline on core `c`: the arrays as the region finds them; after the body at point `t` the
    feature buffer at the tile, the eight weight buffers at their arrays, the four output buffers at the body's stores. -/
def dats (_ : Fin 1) (c : Dev nD) : Dat τ (Elt F) Unit ℕ (UR sig nD τ) ℕ cfg0 c where
  A w := V m c (Pipeline.arrRef spec0 w)
  after w t := match w with
    | ⟨0, _⟩ => xtile m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outEdge (xtile m c t) (iblk m c 1 t) (iblk m c 2 t) (iblk m c 3 t) (iblk m c 4 t)
    | ⟨10, _⟩ => outType (ztile m c t) (iblk m c 8 t)
    | ⟨11, _⟩ => outW (ztile m c t) (iblk m c 8 t)
    | ⟨12, _⟩ => outG (ztile m c t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xtile m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- The feature buffer is fetched at every point: the body finds the tile's rows inside the array, and `d` past them. -/
theorem before0_0 (c : Dev nD) (t : Fin cfg0.N) (d) :
    (dats m 0 c).before 0 t d = win0_0.fill (grid0.coords t) d (iblk m c 0 t) := by
  unfold Dat.before; rw [if_pos (fetch0_0 t)]; rfl

/-- Each weight buffer holds its array at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the feature buffer is stated to hold after the body, cut back to the rows inside the array, is the tile's
    rows inside the array. -/
theorem cut_xtile (c : Dev nD) (t : Fin cfg0.N) : win0_0.cut (grid0.coords t) (xtile m c t) = iblk m c 0 t :=
  win0_0.cut_fill _ _ _

/-! ## The body obligation with the four output windows forgotten -/

/-- The four output windows. -/
abbrev outs : Fin cfg0.W → Bool := fun | 0 => false | 1 => false | 2 => false | 3 => false | 4 => false | 5 => false | 6 => false | 7 => false | 8 => false | 9 => true | 10 => true | 11 => true | 12 => true | ⟨_ + 13, h⟩ => absurd h (Nat.not_lt.2 (Nat.le_add_left _ _))

/-- What the body is called with at point `t`: each input buffer at what the schedule leaves in it, each output buffer
    at anything, -/
def framePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X))

/-- and what it returns: the feature buffer stated on the rows inside the array, the weight buffers whole, the output
    buffers at anything. -/
def framePost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X))

/-- The body at any point, the outputs forgotten: the inputs' buffers hold the tile (filled out past the array's end
    with whatever was there) and the weight arrays, so the body's triple applies; what it leaves in the outputs is
    not looked at. -/
theorem frame_body (c : Dev nD) (t : Fin cfg0.N) :
    framePre m c t ⊢ wp frame (wpE (defs₀ (F := F)) Variants.none c none) Set.univ (bodyAt0 t) (fun _ => framePost m c t) := by
  unfold framePre framePost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, cut_xtile]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%X9, H9⟩, ⟨%X10, H10⟩, ⟨%X11, H11⟩, ⟨%X12, H12⟩⟩
  rw [before0_0 m c t d0, before0_1 m c t d1, before0_2 m c t d2, before0_3 m c t d3, before0_4 m c t d4,
    before0_5 m c t d5, before0_6 m c t d6, before0_7 m c t d7, before0_8 m c t d8]
  iapply (sound_kernel (F := F) c Set.univ (grid0.coords t) _ _ _ _ _ _ _ _ _ _ _ _ _ _ _ _ _ _ _ _ _ _ _ _ _ _
    (win0_0.fill (grid0.coords t) d0 (iblk m c 0 t)) (iblk m c 1 t) (iblk m c 2 t) (iblk m c 3 t) (iblk m c 4 t)
    (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

/-- The library's body obligation with the output windows forgotten, at every point. -/
theorem frame_obligation (c : Dev nD) :
    BodyObligationLoose (dats (F := F) m 0 c) (defs₀ (F := F)) Variants.none () Set.univ outs := fun t => by
  rw [bigSep_W0, bigSep_W0]
  exact frame_body m c t

/-! ## The frame run and the frame -/

set_option backward.isDefEq.respectTransparency.types false in
/-- At the compiled mesh, for any values, from any memory with zero counters: every weakly fair execution of @main
    terminates, every array the pipeline only reads holds what it held at the region's entry, and so does every other
    buffer the region does not scope. -/
theorem run_frame : θ_run defs (onTc (τ := τ) (main (F := F))) (s₀ m ρ)
    (Pipeline.RDat.FramePost cfg0 (fun c => (dats m 0 c).toRForget outs) (V m)) :=
  Pipeline.RDat.θ_run_frame cfgs (0 : Fin 1) launch0 defs₀ Variants.none (fun c => (dats m 0 c).toRForget outs) m ρ main
    (hbody := fun c => (frame_obligation m c).toRForget) (hshare := fun c => (dats m 0 c).share_full fun _ => rfl)
    (howed := fun _ _ => rfl) (V := V m) (hmain := hmain m Variants.none) (hA := A_eq m) (hΦ := fun _ _ => rfl)

/-- An array the pipeline only reads ends at its entry contents. -/
theorem kept (r : PUnit × MemSt nD τ sig (Elt F))
    (h : Pipeline.RDat.FramePost cfg0 (fun c => (dats m 0 c).toRForget outs) (V m) r) (c : Dev nD)
    (w : Fin cfg0.W) (hw : (cfg0.win w).isOut = false) :
    r.2.mem ((cfg0.spec w).arr.view.loc (c.tc : Thread nD τ)) = V m c (Pipeline.arrRef spec0 w) := by
  have h1 := (h c).1 w
  rw [Pipeline.RDat.ArrAt_in _ w hw] at h1
  exact h1.trans (A_eq m c w)

/-- THE FRAME: every weakly fair execution terminates, nothing faults, and the ten argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).2 main_arg0 (Pipeline.mem_restRefs_of main_arg0 (by decide) (by decide))).trans (V_main_arg0 m c),
      (kept m r h c 0 rfl).trans (V_main_arg1 m c),
      (kept m r h c 1 rfl).trans (V_main_arg2 m c),
      ((h c).2 main_arg3 (Pipeline.mem_restRefs_of main_arg3 (by decide) (by decide))).trans (V_main_arg3 m c),
      (kept m r h c 3 rfl).trans (V_main_arg4 m c),
      ((h c).2 main_arg5 (Pipeline.mem_restRefs_of main_arg5 (by decide) (by decide))).trans (V_main_arg5 m c),
      (kept m r h c 5 rfl).trans (V_main_arg6 m c),
      ((h c).2 main_arg7 (Pipeline.mem_restRefs_of main_arg7 (by decide) (by decide))).trans (V_main_arg7 m c),
      (kept m r h c 7 rfl).trans (V_main_arg8 m c),
      ((h c).2 main_arg9 (Pipeline.mem_restRefs_of main_arg9 (by decide) (by decide))).trans (V_main_arg9 m c)⟩)
    (run_frame m ρ)

end Cert.Kernel.Tiles

end
-- ==== Proof.Body.lean ====
/-
  The kernel's body, run once on whole staging buffers, at any float instance.

  The body reads nine buffers whole (a tile of 2048 feature rows and the eight weight and bias
  arrays), computes, and stores four buffers whole: the tile's edge embeddings, its type
  probabilities, and the weights and gated weights transposed to channel-major. Nothing it
  stores depends on what the four output buffers held, and the nine inputs are left as found.
  So the state after the body is a function of the nine inputs' contents alone: each output
  buffer holds the value its one store wrote, as a pure term over the loads.
-/
import proofs.«174127_j84610855731459_2_alg».proof.Proof.Gen.KernelIdeal.Frame
import proofs.«174127_j84610855731459_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and every store is of a whole staging buffer -/

abbrev rX : Rect S2048x512 := Rect.unit (s := S2048x512) ![0, 0] S2048x512.size inb_S2048x512_S2048x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rWt1 : Rect S512x128 := Rect.unit (s := S512x128) ![0, 0] S512x128.size inb_S512x128_S512x128_0_0
abbrev rBt1 : Rect S1x128 := Rect.unit (s := S1x128) ![0, 0] S1x128.size inb_S1x128_S1x128_0_0
abbrev rWt2 : Rect S128x4 := Rect.unit (s := S128x4) ![0, 0] S128x4.size inb_S128x4_S128x4_0_0
abbrev rBt2 : Rect S1x4 := Rect.unit (s := S1x4) ![0, 0] S1x4.size inb_S1x4_S1x4_0_0
abbrev rP : Rect S2048x4 := Rect.unit (s := S2048x4) ![0, 0] S2048x4.size inb_S2048x4_S2048x4_0_0
abbrev rC : Rect S4x2048 := Rect.unit (s := S4x2048) ![0, 0] S4x2048.size inb_S4x2048_S4x2048_0_0

/-! ## What the body leaves in each output buffer, from what the nine input buffers hold -/

/-- The four logits of every row of the tile, before the last bias. -/
def logits (x0 : Vec F S2048x512 .f32) (x1 : Vec F S512x512 .f32) (x2 : Vec F S1x512 .f32) (x3 : Vec F S512x512 .f32)
    (x4 : Vec F S1x512 .f32) (x5 : Vec F S512x128 .f32) (x6 : Vec F S1x128 .f32) (x7 : Vec F S128x4 .f32) : FVec F S2048x4 .f32 :=
  k0_pay2 (View.ld x0 rX) (View.ld x1 rW) (View.ld x2 rB) (View.ld x3 rW) (View.ld x4 rB) (View.ld x5 rWt1) (View.ld x6 rBt1) (View.ld x7 rWt2)

/-- The edge-embedding buffer: its one whole store. -/
def outEdge (x0 : Vec F S2048x512 .f32) (x1 : Vec F S512x512 .f32) (x2 : Vec F S1x512 .f32) (x3 : Vec F S512x512 .f32)
    (x4 : Vec F S1x512 .f32) : Vec F S2048x512 .f32 :=
  View.canon [⟨rX, k0_pay1 (View.ld x0 rX) (View.ld x1 rW) (View.ld x2 rB) (View.ld x3 rW) (View.ld x4 rB)⟩]

/-- The probabilities' buffer. -/
def outType (z : FVec F S2048x4 .f32) (x8 : Vec F S1x4 .f32) : Vec F S2048x4 .f32 :=
  View.canon [⟨rP, k0_pay3 z (View.ld x8 rBt2)⟩]

/-- The weights' buffer (channel-major). -/
def outW (z : FVec F S2048x4 .f32) (x8 : Vec F S1x4 .f32) : Vec F S4x2048 .f32 :=
  View.canon [⟨rC, k0_pay4 z (View.ld x8 rBt2)⟩]

/-- The gated weights' buffer. -/
def outG (z : FVec F S2048x4 .f32) (x8 : Vec F S1x4 .f32) : Vec F S4x2048 .f32 :=
  View.canon [⟨rC, k0_pay5 z (View.ld x8 rBt2)⟩]

theorem coverEdge (p0 : Vec F S2048x512 .f32) (y : S2048x512.Idx) :
    ∃ pc ∈ ([⟨rX, p0⟩] : List (View.Piece (Elt F) S2048x512 .f32)), y ∈ pc.1.set :=
  View.cover_of_tiled [⟨rX, p0⟩] S2048x512.size (by rfl) y
theorem coverP (p0 : Vec F S2048x4 .f32) (y : S2048x4.Idx) :
    ∃ pc ∈ ([⟨rP, p0⟩] : List (View.Piece (Elt F) S2048x4 .f32)), y ∈ pc.1.set :=
  View.cover_of_tiled [⟨rP, p0⟩] S2048x4.size (by rfl) y
theorem coverC (p0 : Vec F S4x2048 .f32) (y : S4x2048.Idx) :
    ∃ pc ∈ ([⟨rC, p0⟩] : List (View.Piece (Elt F) S4x2048 .f32)), y ∈ pc.1.set :=
  View.cover_of_tiled [⟨rC, p0⟩] S4x2048.size (by rfl) y

set_option maxHeartbeats 4000000 in
/-- The body on whole staging buffers: the nine inputs' at what they hold, the four outputs' at anything. It runs to
    the continuation holding the inputs' as they were and each output's at its one store's payload. -/
theorem sound_kernel (c : Dev nD) (E : Set ℕ) (i : grid0.Coords)
    (arg1 : Memref sig .tc .vmem S2048x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S512x128 .f32) (harg6 : arg6.IsWhole)
    (arg7 : Memref sig .tc .vmem S1x128 .f32) (harg7 : arg7.IsWhole) (arg8 : Memref sig .tc .vmem S128x4 .f32) (harg8 : arg8.IsWhole)
    (arg9 : Memref sig .tc .vmem S1x4 .f32) (harg9 : arg9.IsWhole) (arg10 : Memref sig .tc .vmem S2048x512 .f32) (harg10 : arg10.IsWhole)
    (arg11 : Memref sig .tc .vmem S2048x4 .f32) (harg11 : arg11.IsWhole) (arg12 : Memref sig .tc .vmem S4x2048 .f32) (harg12 : arg12.IsWhole)
    (arg13 : Memref sig .tc .vmem S4x2048 .f32) (harg13 : arg13.IsWhole)
    (x0 : Vec F S2048x512 .f32) (x1 : Vec F S512x512 .f32) (x2 : Vec F S1x512 .f32) (x3 : Vec F S512x512 .f32) (x4 : Vec F S1x512 .f32)
    (x5 : Vec F S512x128 .f32) (x6 : Vec F S1x128 .f32) (x7 : Vec F S128x4 .f32) (x8 : Vec F S1x4 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (outEdge x0 x1 x2 x3 x4)
            ∗ owns (c : Thread nD τ) arg11 fullShare (outType (logits x0 x1 x2 x3 x4 x5 x6 x7) x8)
            ∗ owns (c : Thread nD τ) arg12 fullShare (outW (logits x0 x1 x2 x3 x4 x5 x6 x7) x8)
            ∗ owns (c : Thread nD τ) arg13 fullShare (outG (logits x0 x1 x2 x3 x4 x5 x6 x7) x8)) -∗ K ⟨⟩))
      ⊢ wp frame (wpE (defs₀ (F := F)) Variants.none c none) E
          (cc0__mlp2_kernel i arg1 harg1 arg2 harg2 arg3 harg3 arg4 harg4 arg5 harg5 arg6 harg6 arg7 harg7 arg8 harg8 arg9 harg9
            arg10 harg10 arg11 harg11 arg12 harg12 arg13 harg13) K := by
  simp only [cc0__mlp2_kernel_eq_skeleton]; unfold cc0__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverEdge _)
  isplitl [H10]
  · iexists _; isplitr
    swap; · iexact H10
    ipureintro
    exact View.read_writes_eq_canon _ _ _ (coverP _)
  isplitl [H11]
  · iexists _; isplitr
    swap; · iexact H11
    ipureintro
    exact View.read_writes_eq_canon _ _ _ (coverC _)
  iexists _; isplitr
  swap; · iexact H12
  ipureintro
  exact View.read_writes_eq_canon _ _ _ (coverC _)

end Cert.KernelIdeal.Body

end
-- ==== Proof.Tiles.lean ====
/-
  The pipeline around the body: what each staging buffer holds at every grid point, and the frame.

  The grid has 44 points; point `t` works on feature rows `2048·t … 2048·t + 2047`. The array has
  89700 rows, so the last tile overhangs it by 412 rows: its fetch fills only the first 1636
  rows of the buffer and the rest holds words nothing names; its write-backs move only the part
  inside the arrays. The eight weight and bias arrays are fetched once and found unchanged at
  every point.

  After the body the feature buffer holds what it held; the proof data names it as the tile's
  rows inside the array filled out with the zero word, which is all a window with overhanging
  blocks is asked about. The four output buffers hold the body's four stores computed from that
  buffer.

  For the frame nothing is asked of the outputs' contents, so their windows are forgotten: the
  body is handed them at any contents and hands them back at any contents. The run then ends
  with every input array at its entry contents, and every other argument untouched.
-/
import proofs.«174127_j84610855731459_2_alg».proof.Proof.Body

set_option maxRecDepth 16384

noncomputable section

namespace Cert.KernelIdeal.Tiles

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The feature tile of point `t` as a whole buffer: its rows inside the array, the zero word on the rows past the
    array's end (only the last tile has any). -/
def xtile (c : Dev nD) (t : Fin cfg0.N) : S2048x512.Idx → Elt F .f32 :=
  win0_0.fill (grid0.coords t) (fun _ => Scalar.ofBits .f32 0#32) (iblk m c 0 t)

/-- The tile's logits before the last bias. -/
def ztile (c : Dev nD) (t : Fin cfg0.N) : FVec F S2048x4 .f32 :=
  logits (xtile m c t) (iblk m c 1 t) (iblk m c 2 t) (iblk m c 3 t) (iblk m c 4 t) (iblk m c 5 t) (iblk m c 6 t) (iblk m c 7 t)

/-- The proof data of the pipeline on core `c`: the arrays as the region finds them; after the body at point `t` the
    feature buffer at the tile, the eight weight buffers at their arrays, the four output buffers at the body's stores. -/
def dats (_ : Fin 1) (c : Dev nD) : Dat τ (Elt F) Unit ℕ (UR sig nD τ) ℕ cfg0 c where
  A w := V m c (Pipeline.arrRef spec0 w)
  after w t := match w with
    | ⟨0, _⟩ => xtile m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outEdge (xtile m c t) (iblk m c 1 t) (iblk m c 2 t) (iblk m c 3 t) (iblk m c 4 t)
    | ⟨10, _⟩ => outType (ztile m c t) (iblk m c 8 t)
    | ⟨11, _⟩ => outW (ztile m c t) (iblk m c 8 t)
    | ⟨12, _⟩ => outG (ztile m c t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xtile m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- The feature buffer is fetched at every point: the body finds the tile's rows inside the array, and `d` past them. -/
theorem before0_0 (c : Dev nD) (t : Fin cfg0.N) (d) :
    (dats m 0 c).before 0 t d = win0_0.fill (grid0.coords t) d (iblk m c 0 t) := by
  unfold Dat.before; rw [if_pos (fetch0_0 t)]; rfl

/-- Each weight buffer holds its array at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the feature buffer is stated to hold after the body, cut back to the rows inside the array, is the tile's
    rows inside the array. -/
theorem cut_xtile (c : Dev nD) (t : Fin cfg0.N) : win0_0.cut (grid0.coords t) (xtile m c t) = iblk m c 0 t :=
  win0_0.cut_fill _ _ _

/-! ## The body obligation with the four output windows forgotten -/

/-- The four output windows. -/
abbrev outs : Fin cfg0.W → Bool := fun | 0 => false | 1 => false | 2 => false | 3 => false | 4 => false | 5 => false | 6 => false | 7 => false | 8 => false | 9 => true | 10 => true | 11 => true | 12 => true | ⟨_ + 13, h⟩ => absurd h (Nat.not_lt.2 (Nat.le_add_left _ _))

/-- What the body is called with at point `t`: each input buffer at what the schedule leaves in it, each output buffer
    at anything, -/
def framePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X))

/-- and what it returns: the feature buffer stated on the rows inside the array, the weight buffers whole, the output
    buffers at anything. -/
def framePost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X))

/-- The body at any point, the outputs forgotten: the inputs' buffers hold the tile (filled out past the array's end
    with whatever was there) and the weight arrays, so the body's triple applies; what it leaves in the outputs is
    not looked at. -/
theorem frame_body (c : Dev nD) (t : Fin cfg0.N) :
    framePre m c t ⊢ wp frame (wpE (defs₀ (F := F)) Variants.none c none) Set.univ (bodyAt0 t) (fun _ => framePost m c t) := by
  unfold framePre framePost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, cut_xtile]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%X9, H9⟩, ⟨%X10, H10⟩, ⟨%X11, H11⟩, ⟨%X12, H12⟩⟩
  rw [before0_0 m c t d0, before0_1 m c t d1, before0_2 m c t d2, before0_3 m c t d3, before0_4 m c t d4,
    before0_5 m c t d5, before0_6 m c t d6, before0_7 m c t d7, before0_8 m c t d8]
  iapply (sound_kernel (F := F) c Set.univ (grid0.coords t) _ _ _ _ _ _ _ _ _ _ _ _ _ _ _ _ _ _ _ _ _ _ _ _ _ _
    (win0_0.fill (grid0.coords t) d0 (iblk m c 0 t)) (iblk m c 1 t) (iblk m c 2 t) (iblk m c 3 t) (iblk m c 4 t)
    (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

/-- The library's body obligation with the output windows forgotten, at every point. -/
theorem frame_obligation (c : Dev nD) :
    BodyObligationLoose (dats (F := F) m 0 c) (defs₀ (F := F)) Variants.none () Set.univ outs := fun t => by
  rw [bigSep_W0, bigSep_W0]
  exact frame_body m c t

/-! ## The frame run and the frame -/

set_option backward.isDefEq.respectTransparency.types false in
/-- At the compiled mesh, for any values, from any memory with zero counters: every weakly fair execution of @main
    terminates, every array the pipeline only reads holds what it held at the region's entry, and so does every other
    buffer the region does not scope. -/
theorem run_frame : θ_run defs (onTc (τ := τ) (main (F := F))) (s₀ m ρ)
    (Pipeline.RDat.FramePost cfg0 (fun c => (dats m 0 c).toRForget outs) (V m)) :=
  Pipeline.RDat.θ_run_frame cfgs (0 : Fin 1) launch0 defs₀ Variants.none (fun c => (dats m 0 c).toRForget outs) m ρ main
    (hbody := fun c => (frame_obligation m c).toRForget) (hshare := fun c => (dats m 0 c).share_full fun _ => rfl)
    (howed := fun _ _ => rfl) (V := V m) (hmain := hmain m Variants.none) (hA := A_eq m) (hΦ := fun _ _ => rfl)

/-- An array the pipeline only reads ends at its entry contents. -/
theorem kept (r : PUnit × MemSt nD τ sig (Elt F))
    (h : Pipeline.RDat.FramePost cfg0 (fun c => (dats m 0 c).toRForget outs) (V m) r) (c : Dev nD)
    (w : Fin cfg0.W) (hw : (cfg0.win w).isOut = false) :
    r.2.mem ((cfg0.spec w).arr.view.loc (c.tc : Thread nD τ)) = V m c (Pipeline.arrRef spec0 w) := by
  have h1 := (h c).1 w
  rw [Pipeline.RDat.ArrAt_in _ w hw] at h1
  exact h1.trans (A_eq m c w)

/-- THE FRAME: every weakly fair execution terminates, nothing faults, and the ten argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).2 main_arg0 (Pipeline.mem_restRefs_of main_arg0 (by decide) (by decide))).trans (V_main_arg0 m c),
      (kept m r h c 0 rfl).trans (V_main_arg1 m c),
      (kept m r h c 1 rfl).trans (V_main_arg2 m c),
      ((h c).2 main_arg3 (Pipeline.mem_restRefs_of main_arg3 (by decide) (by decide))).trans (V_main_arg3 m c),
      (kept m r h c 3 rfl).trans (V_main_arg4 m c),
      ((h c).2 main_arg5 (Pipeline.mem_restRefs_of main_arg5 (by decide) (by decide))).trans (V_main_arg5 m c),
      (kept m r h c 5 rfl).trans (V_main_arg6 m c),
      ((h c).2 main_arg7 (Pipeline.mem_restRefs_of main_arg7 (by decide) (by decide))).trans (V_main_arg7 m c),
      (kept m r h c 7 rfl).trans (V_main_arg8 m c),
      ((h c).2 main_arg9 (Pipeline.mem_restRefs_of main_arg9 (by decide) (by decide))).trans (V_main_arg9 m c)⟩)
    (run_frame m ρ)

end Cert.KernelIdeal.Tiles

end
-- ==== Proof.Spec.lean ====
/-
  What both programs compute, one row of the edge features at a time.

  A row `x` of 512 features goes through two linear layers with a rectifier between them
  (512 → 512 → 512): the edge embedding of that row. The embedding goes through a second such
  network (512 → 128 → 4) and a softmax over the four channels: the row's type probabilities
  `p`. The row's weights are `p` with channel 0 replaced by `1 - p 0`, and the gated weights pass
  each of those through a clamp: `0` at or below the lower threshold, `1` at or above the upper
  one, a linear ramp between.

  Every number is an extended real; a sum is a sum over `Fin K`, a maximum is a fold of `max`
  from `-∞`; the six float words that occur are kept as words and read by `Ideal.ofBits`, so
  that no decimal is ever evaluated. The four results are then whole arrays: row `r` of each
  depends on row `r` of the features and on the weight matrices only.
-/
import Idealize.ShloMosaic.PureOps.Ideal
import Idealize.ShloMosaic.PureOps.Ideal.Laws
import Idealize.ShloMosaic.Lib.ValueIdx

noncomputable section

namespace Cert.LinkSpec

open Idealize.ShloMosaic Idealize.ShloMosaic.ValueIdx

/-- The float words the two programs share, read as extended reals: `0`, `-∞`, `1`, the lower
    threshold (the word nearest 0.025), the upper threshold (the word nearest 1/2.2 + 0.025) and
    the ramp's slope (the word nearest 2.2). -/
abbrev zero : EReal := Ideal.ofBits .f32 0x00000000#32
abbrev negInf : EReal := Ideal.ofBits .f32 0xFF800000#32
abbrev one : EReal := Ideal.ofBits .f32 0x3F800000#32
abbrev lo : EReal := Ideal.ofBits .f32 0x3CCCCCCD#32
abbrev hi : EReal := Ideal.ofBits .f32 0x3EF586FB#32
abbrev slope : EReal := Ideal.ofBits .f32 0x400CCCCD#32

/-- A linear layer on one row: `y j = (∑ k, x k · W k j) + b j`. -/
def lin {K N : Nat} (x : Fin K → EReal) (W : Fin K → Fin N → EReal) (b : Fin N → EReal) (j : Fin N) : EReal :=
  (∑ k : Fin K, x k * W k j) + b j

/-- The rectifier. -/
def relu (v : EReal) : EReal := max v zero

/-- Two linear layers with the rectifier between them. -/
def mlp {K H N : Nat} (x : Fin K → EReal) (W1 : Fin K → Fin H → EReal) (b1 : Fin H → EReal)
    (W2 : Fin H → Fin N → EReal) (b2 : Fin N → EReal) (j : Fin N) : EReal :=
  lin (fun k => relu (lin x W1 b1 k)) W2 b2 j

/-- The largest of four logits (never below `-∞`, which is where the fold starts). -/
def rowMax (z : Fin 4 → EReal) : EReal := max negInf ((Finset.univ : Finset (Fin 4)).fold max negInf z)

/-- The softmax of four logits, shifted by their maximum. -/
def softmax (z : Fin 4 → EReal) (a : Fin 4) : EReal :=
  Ideal.div (Ideal.exp (z a - rowMax z)) (∑ b : Fin 4, Ideal.exp (z b - rowMax z))

/-- The weights of a row: channel 0 is the complement of its probability, the others are kept. -/
def weights (p : Fin 4 → EReal) (a : Fin 4) : EReal := if a.val = 0 then one - p a else p a

/-- The clamp: `0` at or below `lo`, `1` at or above `hi`, the ramp `slope · (v - lo)` between. -/
def gate (v : EReal) : EReal :=
  Scalar.select (Ideal.cmp .ole v lo) zero (Scalar.select (Ideal.cmp .oge v hi) one (slope * (v - lo)))

/-! ## The four results as whole arrays -/

section Arrays

variable (X : (⟨2, ![89700, 512]⟩ : Shape).Idx → EReal)
  (We1 : (⟨2, ![512, 512]⟩ : Shape).Idx → EReal) (be1 : (⟨1, ![512]⟩ : Shape).Idx → EReal)
  (We2 : (⟨2, ![512, 512]⟩ : Shape).Idx → EReal) (be2 : (⟨1, ![512]⟩ : Shape).Idx → EReal)
  (Wt1 : (⟨2, ![512, 128]⟩ : Shape).Idx → EReal) (bt1 : (⟨1, ![128]⟩ : Shape).Idx → EReal)
  (Wt2 : (⟨2, ![128, 4]⟩ : Shape).Idx → EReal) (bt2 : (⟨1, ![4]⟩ : Shape).Idx → EReal)

/-- The edge embedding of row `r`. -/
def edgeRow (r : Fin 89700) (j : Fin 512) : EReal :=
  mlp (fun l => X (ix2 r l)) (fun l k => We1 (ix2 l k)) (fun k => be1 (ix1 k))
    (fun k j => We2 (ix2 k j)) (fun j => be2 (ix1 j)) j

/-- The type probabilities of row `r`. -/
def typeRow (r : Fin 89700) (a : Fin 4) : EReal :=
  softmax (mlp (edgeRow X We1 be1 We2 be2 r) (fun l k => Wt1 (ix2 l k)) (fun k => bt1 (ix1 k))
    (fun k a => Wt2 (ix2 k a)) (fun a => bt2 (ix1 a))) a

/-- The edge embeddings, `[89700, 512]`. -/
def edgeEmbed : (⟨2, ![89700, 512]⟩ : Shape).Idx → EReal := fun i => edgeRow X We1 be1 We2 be2 (i 0) (i 1)

/-- The type probabilities, `[89700, 4]`. -/
def typeOutput : (⟨2, ![89700, 4]⟩ : Shape).Idx → EReal :=
  fun i => typeRow X We1 be1 We2 be2 Wt1 bt1 Wt2 bt2 (i 0) (i 1)

/-- The weights, channel-major `[4, 89700]`. -/
def typesW : (⟨2, ![4, 89700]⟩ : Shape).Idx → EReal :=
  fun i => weights (typeRow X We1 be1 We2 be2 Wt1 bt1 Wt2 bt2 (i 1)) (i 0)

/-- The gated weights, `[4, 89700]`. -/
def multiW : (⟨2, ![4, 89700]⟩ : Shape).Idx → EReal :=
  fun i => gate (typesW X We1 be1 We2 be2 Wt1 bt1 Wt2 bt2 i)

end Arrays

end Cert.LinkSpec

end
-- ==== Proof.Payload.lean ====
/-
  The kernel body's five stored values read at one index, over the extended reals.

  Row `r` of the tile's edge embedding is the two-layer network of row `r` of the feature tile; its
  four logits are the second network of that embedding; its probabilities the softmax of the
  logits; the transposed weights and gated weights at `(a, r)` are channel `a` of row `r`. A
  change of float format is the identity here, a matrix product into a zero accumulator is the
  plain sum over the contracted axis, and a lane reduction is a sum or a fold of `max` over the
  four channels.
-/
import proofs.«174127_j84610855731459_2_alg».proof.Proof.Gen.KernelIdeal.Skeleton
import proofs.«174127_j84610855731459_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.LinkSpec
open Idealize.ShloMosaic Idealize.ShloMosaic.ValueIdx

/-! ### The product 2048 × 512 by 512 × 512 -/

theorem lhsA_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhsA_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhsA_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhsA_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Into the zero accumulator the product at `(r, j)` is the sum over the contracted axis. -/
theorem matmulA_apply {φ₁ φ₂ : FTy} (A : FVec Ideal S2048x512 φ₁) (B : FVec Ideal S512x512 φ₂) (r : Fin 2048) (j : Fin 512) :
    matmul dot_S2048x512_S512x512_S2048x512_1_0_0_1_n_n none A B (constant S2048x512 .f32 0x00000000#32) (ix2 r j)
      = ∑ k : Fin 512, A (ix2 r k) * B (ix2 k j) := by
  show FloatOps.matmul dot_S2048x512_S512x512_S2048x512_1_0_0_1_n_n none A B (constant S2048x512 .f32 0x00000000#32) (ix2 r j) = _
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r j) ((contrEquiv1 dot_S2048x512_S512x512_S2048x512_1_0_0_1_n_n 512 rfl rfl).symm k) = ix2 r k := funext fun a => Fin.ext (by
    match a with
    | ⟨0, _⟩ => exact lhsA_0 _ _
    | ⟨1, _⟩ => exact (lhsA_1 _ _).trans hk)
  have er : dot_S2048x512_S512x512_S2048x512_1_0_0_1_n_n.rhsIdx (ix2 r j) ((contrEquiv1 dot_S2048x512_S512x512_S2048x512_1_0_0_1_n_n 512 rfl rfl).symm k) = ix2 k j := funext fun a => Fin.ext (by
    match a with
    | ⟨0, _⟩ => exact (rhsA_0 _ _).trans hk
    | ⟨1, _⟩ => exact rhsA_1 _ _)
  rw [el, er]

/-- The bias row broadcast over the 2048 rows reads, at `(r, j)`, the row's entry `j`. -/
theorem biasRowA (b : FVec Ideal S1x512 .f32) (r : Fin 2048) (j : Fin 512) :
    broadcastTo S2048x512 (shapeCast S1x512 b shapeCasts_S1x512_S1x512) broadcasts_S1x512_S2048x512 (ix2 r j) = b (ix2 0 j) := by
  rw [shapeCast_self]
  exact broadcastTo_1b_ab_apply b broadcasts_S1x512_S2048x512 r j

/-! ### The product 2048 × 512 by 512 × 128 -/

theorem lhsB_0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem lhsB_1 (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
theorem rhsB_0 (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q
theorem rhsB_1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- Into the zero accumulator the product at `(r, j)` is the sum over the contracted axis. -/
theorem matmulB_apply {φ₁ φ₂ : FTy} (A : FVec Ideal S2048x512 φ₁) (B : FVec Ideal S512x128 φ₂) (r : Fin 2048) (j : Fin 128) :
    matmul dot_S2048x512_S512x128_S2048x128_1_0_0_1_n_n none A B (constant S2048x128 .f32 0x00000000#32) (ix2 r j)
      = ∑ k : Fin 512, A (ix2 r k) * B (ix2 k j) := by
  show FloatOps.matmul dot_S2048x512_S512x128_S2048x128_1_0_0_1_n_n none A B (constant S2048x128 .f32 0x00000000#32) (ix2 r j) = _
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 r j) ((contrEquiv1 dot_S2048x512_S512x128_S2048x128_1_0_0_1_n_n 512 rfl rfl).symm k) = ix2 r k := funext fun a => Fin.ext (by
    match a with
    | ⟨0, _⟩ => exact lhsB_0 _ _
    | ⟨1, _⟩ => exact (lhsB_1 _ _).trans hk)
  have er : dot_S2048x512_S512x128_S2048x128_1_0_0_1_n_n.rhsIdx (ix2 r j) ((contrEquiv1 dot_S2048x512_S512x128_S2048x128_1_0_0_1_n_n 512 rfl rfl).symm k) = ix2 k j := funext fun a => Fin.ext (by
    match a with
    | ⟨0, _⟩ => exact (rhsB_0 _ _).trans hk
    | ⟨1, _⟩ => exact rhsB_1 _ _)
  rw [el, er]

/-! ### The product 2048 × 128 by 128 × 4 -/

theorem lhsC_0 (i : S2048x4.Idx) (q : dot_S2048x128_S128x4_S2048x4_1_0_0_1_n_n.contr.Idx) :
    (dot_S2048x128_S128x4_S2048x4_1_0_0_1_n_n.lhsIdx i q 0).val = (i 0).val := by
  unfold DotDims.lhsIdx
  rw [dif_neg (show ¬(0 : Fin S2048x128.rank) ∈ dot_S2048x128_S128x4_S2048x4_1_0_0_1_n_n.lhsBatch by decide), dif_pos (show (0 : Fin S2048x128.rank) ∈ dot_S2048x128_S128x4_S2048x4_1_0_0_1_n_n.lhsNonContracting by decide)]
  rfl
theorem lhsC_1 (i : S2048x4.Idx) (q : dot_S2048x128_S128x4_S2048x4_1_0_0_1_n_n.contr.Idx) :
    (dot_S2048x128_S128x4_S2048x4_1_0_0_1_n_n.lhsIdx i q 1).val = (q ⟨0, by decide⟩).val :=
  dot_S2048x128_S128x4_S2048x4_1_0_0_1_n_n.lhsIdx_val_of_single rfl i q
theorem rhsC_0 (i : S2048x4.Idx) (q : dot_S2048x128_S128x4_S2048x4_1_0_0_1_n_n.contr.Idx) :
    (dot_S2048x128_S128x4_S2048x4_1_0_0_1_n_n.rhsIdx i q 0).val = (q ⟨0, by decide⟩).val :=
  dot_S2048x128_S128x4_S2048x4_1_0_0_1_n_n.rhsIdx_val_of_single rfl i q
theorem rhsC_1 (i : S2048x4.Idx) (q : dot_S2048x128_S128x4_S2048x4_1_0_0_1_n_n.contr.Idx) :
    (dot_S2048x128_S128x4_S2048x4_1_0_0_1_n_n.rhsIdx i q 1).val = (i 1).val := by
  unfold DotDims.rhsIdx
  rw [dif_neg (show ¬(1 : Fin S128x4.rank) ∈ dot_S2048x128_S128x4_S2048x4_1_0_0_1_n_n.rhsBatch by decide), dif_pos (show (1 : Fin S128x4.rank) ∈ dot_S2048x128_S128x4_S2048x4_1_0_0_1_n_n.rhsNonContracting by decide)]
  rfl

/-- Into the zero accumulator the product at `(r, j)` is the sum over the contracted axis. -/
theorem matmulC_apply {φ₁ φ₂ : FTy} (A : FVec Ideal S2048x128 φ₁) (B : FVec Ideal S128x4 φ₂) (r : Fin 2048) (j : Fin 4) :
    matmul dot_S2048x128_S128x4_S2048x4_1_0_0_1_n_n none A B (constant S2048x4 .f32 0x00000000#32) (ix2 r j)
      = ∑ k : Fin 128, A (ix2 r k) * B (ix2 k j) := by
  show FloatOps.matmul dot_S2048x128_S128x4_S2048x4_1_0_0_1_n_n none A B (constant S2048x4 .f32 0x00000000#32) (ix2 r j) = _
  rw [Ideal.matmul_constant_zero_apply, ← Equiv.sum_comp (contrEquiv1 dot_S2048x128_S128x4_S2048x4_1_0_0_1_n_n 128 rfl rfl).symm]
  refine Finset.sum_congr rfl fun k _ => ?_
  have hk := contrEquiv1_symm_val dot_S2048x128_S128x4_S2048x4_1_0_0_1_n_n 128 rfl rfl k
  have el : dot_S2048x128_S128x4_S2048x4_1_0_0_1_n_n.lhsIdx (ix2 r j) ((contrEquiv1 dot_S2048x128_S128x4_S2048x4_1_0_0_1_n_n 128 rfl rfl).symm k) = ix2 r k := funext fun a => Fin.ext (by
    match a with
    | ⟨0, _⟩ => exact lhsC_0 _ _
    | ⟨1, _⟩ => exact (lhsC_1 _ _).trans hk)
  have er : dot_S2048x128_S128x4_S2048x4_1_0_0_1_n_n.rhsIdx (ix2 r j) ((contrEquiv1 dot_S2048x128_S128x4_S2048x4_1_0_0_1_n_n 128 rfl rfl).symm k) = ix2 k j := funext fun a => Fin.ext (by
    match a with
    | ⟨0, _⟩ => exact (rhsC_0 _ _).trans hk
    | ⟨1, _⟩ => exact rhsC_1 _ _)
  rw [el, er]

/-- The bias row broadcast over the 2048 rows reads, at `(r, j)`, the row's entry `j`. -/
theorem biasRowB (b : FVec Ideal S1x128 .f32) (r : Fin 2048) (j : Fin 128) :
    broadcastTo S2048x128 (shapeCast S1x128 b shapeCasts_S1x128_S1x128) broadcasts_S1x128_S2048x128 (ix2 r j) = b (ix2 0 j) := by
  rw [shapeCast_self]
  exact broadcastTo_1b_ab_apply b broadcasts_S1x128_S2048x128 r j

/-- The bias row broadcast over the 2048 rows reads, at `(r, j)`, the row's entry `j`. -/
theorem biasRowC (b : FVec Ideal S1x4 .f32) (r : Fin 2048) (j : Fin 4) :
    broadcastTo S2048x4 (shapeCast S1x4 b shapeCasts_S1x4_S1x4) broadcasts_S1x4_S2048x4 (ix2 r j) = b (ix2 0 j) := by
  rw [shapeCast_self]
  exact broadcastTo_1b_ab_apply b broadcasts_S1x4_S2048x4 r j

/-! ### The four channels of a row: column forms and lane reductions -/

/-- A column of 2048 entries, kept as a `[2048, 1]` array and broadcast over the four channels, reads at `(r, a)`
    the column's entry `r`. -/
theorem keepCol (v : FVec Ideal S2048 .f32) (r : Fin 2048) (a : Fin 4) :
    broadcastTo S2048x4 (shapeCast S2048x1 v shapeCasts_S2048_S2048x1) broadcasts_S2048x1_S2048x4 (ix2 r a) = v (ix1 r) := by
  refine (broadcastTo_apply _ broadcasts_S2048x1_S2048x4 (ix2 r a) (ix2 r (0 : Fin 1)) fun ax => ?_).trans ?_
  · match ax with
    | ⟨0, _⟩ => show r.val = if (2048 : Nat) = 1 then 0 else r.val; rw [if_neg (by decide)]
    | ⟨1, _⟩ => show (0 : Nat) = if (1 : Nat) = 1 then 0 else a.val; rw [if_pos rfl]
  · exact shapeCast_apply v shapeCasts_S2048_S2048x1 (ix2 r (0 : Fin 1)) (ix1 r) (by
      rw [Shape.rowMajor_val_one, Shape.rowMajor_val_two]
      show r.val = r.val * 1 + 0
      omega)

/-- The index of row `r` with channel `k` put back on the reduced axis is `(r, k)`. -/
theorem lift_row (r : Fin 2048) (k : Fin 4) : reduces_S2048x4_S2048.lift (ix1 r) k = ix2 r k :=
  funext fun a => Fin.ext (match a with | ⟨0, _⟩ => rfl | ⟨1, _⟩ => rfl)

/-- The lane sum of row `r` is the sum over its four channels. -/
theorem rowSum_apply (src : FVec Ideal S2048x4 .f32) (r : Fin 2048) :
    multiReduction (F := Ideal) .add [1] S2048 src 0x00000000#32 reduces_S2048x4_S2048 (.inl rfl) rfl (ix1 r)
      = ∑ k : Fin 4, src (ix2 r k) := by
  refine (Ideal.multiReduction_add_single src _ reduces_S2048x4_S2048 _ _ (ix1 r)).trans ?_
  show ∑ k : Fin 4, src (reduces_S2048x4_S2048.lift (ix1 r) k) = _
  exact Finset.sum_congr rfl fun k _ => congrArg src (lift_row r k)

/-- The lane maximum of row `r` is the fold of `max` from `-∞` over its four channels. -/
theorem rowMax_apply (src : FVec Ideal S2048x4 .f32) (r : Fin 2048) :
    multiReduction (F := Ideal) .maximumf [1] S2048 src 0xFF800000#32 reduces_S2048x4_S2048 (.inl rfl) rfl (ix1 r)
      = (Finset.univ : Finset (Fin 4)).fold max negInf (fun k => src (ix2 r k)) := by
  refine (Ideal.multiReduction_maximumf_single src _ reduces_S2048x4_S2048 _ _ (ix1 r)).trans ?_
  show (Finset.univ : Finset (Fin 4)).fold max negInf (src ∘ reduces_S2048x4_S2048.lift (ix1 r)) = _
  exact congrArg (fun f => (Finset.univ : Finset (Fin 4)).fold max negInf f) (funext fun k => congrArg src (lift_row r k))

/-- An exponential at an index is the exponential of the element. -/
theorem exp_apply {s : Shape} {φ : FTy} (v : FVec Ideal s φ) (i : s.Idx) : exp v i = Ideal.exp (v i) := rfl

/-- A float word read at the extended reals. -/
theorem scalar_ofBits (φ : FTy) (w : BitVec φ.bits) : Scalar.ofBits (F := Ideal) φ w = Ideal.ofBits φ w := rfl

/-! ### The transposed weights: the transpose, the channel number and the test for channel 0 -/

/-- The transposed probabilities at `(a, r)` are the probabilities at `(r, a)`. -/
theorem transposeT_apply (x : FVec Ideal S2048x4 .f32) (a : Fin 4) (r : Fin 2048) :
    transpose S4x2048 [1, 0] x transposes_S2048x4_p1_0_S4x2048 (ix2 a r) = x (ix2 r a) :=
  transpose_ix2_apply x transposes_S2048x4_p1_0_S4x2048 a r

/-- The channel number at `(a, r)` is `a`. -/
theorem iotaT_apply (a : Fin 4) (r : Fin 2048) :
    iota .tc S4x2048 32 [0] iota_S4x2048_d0_w32 (ix2 a r) = BitVec.ofNat 32 a.val :=
  iota_single_apply .tc S4x2048 32 0 iota_S4x2048_d0_w32 (ix2 a r)

/-- An integer comparison at an index compares the elements. -/
theorem cmpi_apply {s : Shape} {w : Nat} (p : CmpIPredicate) (x y : IVec s w) (i : s.Idx) :
    cmpi p x y i = IntOp.cmpi p (x i) (y i) := rfl

/-- A select whose condition is "channel `a` is 0" is the `if` on `a`. -/
theorem select_chan0 {α : Type} (a : Fin 4) (A B : α) :
    Scalar.select (IntOp.cmpi .eq (BitVec.ofNat 32 a.val) 0#32) A B = if a.val = 0 then A else B :=
  match a with
  | ⟨0, _⟩ => rfl
  | ⟨1, _⟩ => rfl
  | ⟨2, _⟩ => rfl
  | ⟨3, _⟩ => rfl

variable (x0 : Vec Ideal S2048x512 .f32) (w1 : Vec Ideal S512x512 .f32) (b1 : Vec Ideal S1x512 .f32)
  (w2 : Vec Ideal S512x512 .f32) (b2 : Vec Ideal S1x512 .f32) (wt1 : Vec Ideal S512x128 .f32) (bt1 : Vec Ideal S1x128 .f32)
  (wt2 : Vec Ideal S128x4 .f32) (bt2 : Vec Ideal S1x4 .f32) (z : FVec Ideal S2048x4 .f32)

/-- The stored edge embedding at row `r`, column `j`: the two-layer network of row `r` of the tile. -/
theorem edge_apply (r : Fin 2048) (j : Fin 512) :
    k0_pay1 (F := Ideal) x0 w1 b1 w2 b2 (ix2 r j)
      = mlp (fun l => x0 (ix2 r l)) (fun l k => w1 (ix2 l k)) (fun k => b1 (ix2 0 k))
          (fun k j => w2 (ix2 k j)) (fun j => b2 (ix2 0 j)) j := by
  unfold k0_pay1 mlp lin relu
  simp only [addf_apply, matmulA_apply, biasRowA, truncf_apply, maximumf_apply, broadcast_apply]
  rfl

/-- The logits before the last bias at row `r`, channel `a`: the hidden layer of the second network, rectified, against
    column `a` of its last weight matrix. -/
theorem prelogit_apply (r : Fin 2048) (a : Fin 4) :
    k0_pay2 (F := Ideal) x0 w1 b1 w2 b2 wt1 bt1 wt2 (ix2 r a)
      = ∑ k : Fin 128, relu (lin (fun l => k0_pay1 (F := Ideal) x0 w1 b1 w2 b2 (ix2 r l)) (fun l k => wt1 (ix2 l k))
          (fun k => bt1 (ix2 0 k)) k) * wt2 (ix2 k a) := by
  unfold k0_pay2 lin relu
  simp only [matmulB_apply, matmulC_apply, addf_apply, biasRowB, truncf_apply, maximumf_apply, broadcast_apply,
    scalar_ofBits]

/-- The stored probabilities at row `r`, channel `a`: the softmax of the row's four logits. -/
theorem type_apply (r : Fin 2048) (a : Fin 4) :
    k0_pay3 (F := Ideal) z bt2 (ix2 r a) = softmax (fun a' => z (ix2 r a') + bt2 (ix2 0 a')) a := by
  unfold k0_pay3 softmax rowMax
  simp only [divf_apply, exp_apply, subf_apply, addf_apply, keepCol, maximumf_apply, broadcast_apply, biasRowC,
    scalar_ofBits]
  rw [rowMax_apply, rowSum_apply]
  simp only [exp_apply, subf_apply, addf_apply, keepCol, maximumf_apply, broadcast_apply, biasRowC, scalar_ofBits]
  rw [rowMax_apply]
  simp only [addf_apply, biasRowC]

/-- The stored weights at channel `a`, row `r`: the row's probabilities, channel 0 complemented. -/
theorem weights_apply (a : Fin 4) (r : Fin 2048) :
    k0_pay4 (F := Ideal) z bt2 (ix2 a r) = weights (fun a' => k0_pay3 (F := Ideal) z bt2 (ix2 r a')) a := by
  unfold k0_pay4 weights
  simp only [select_apply, subf_apply, broadcast_apply, cmpi_apply, scalar_ofBits]
  rw [transposeT_apply, iotaT_apply, select_chan0]

/-- The stored gated weights at channel `a`, row `r`: the clamp of the weight there. -/
theorem gate_apply (a : Fin 4) (r : Fin 2048) :
    k0_pay5 (F := Ideal) z bt2 (ix2 a r) = gate (k0_pay4 (F := Ideal) z bt2 (ix2 a r)) := by
  unfold k0_pay5 gate
  rfl

end Cert.KernelIdeal.Payload

end
-- ==== Proof.Rows.lean ====
/-
  The four output buffers of one tile, read at an index, as functions of the tile's rows.

  Row `r` of the edge-embedding buffer is the two-layer network of row `r` of the feature buffer;
  row `r` of the probabilities' buffer is the softmax of the second network of that embedding;
  the two channel-major buffers at `(a, r)` are the weight and the gated weight of channel `a` of
  row `r`. Hence row `r` of every output depends on row `r` of the feature buffer only: two
  feature buffers that agree on a row give the same outputs on that row. That is what makes the
  rows past the array's end harmless in the last, overhanging tile.
-/
import proofs.«174127_j84610855731459_2_alg».proof.Proof.Body
import proofs.«174127_j84610855731459_2_alg».proof.Proof.Payload

noncomputable section

namespace Cert.KernelIdeal.Rows

open Cert.KernelIdeal Cert.KernelIdeal.Gen Cert.KernelIdeal.Body Cert.KernelIdeal.Payload Cert.LinkSpec
open Idealize.ShloMosaic Idealize.ShloMosaic.ValueIdx

theorem hz : (![0, 0] : Fin 2 → Nat) = fun _ => 0 := funext fun a => by fin_cases a <;> rfl

variable (X : Vec Ideal S2048x512 .f32) (x1 : Vec Ideal S512x512 .f32) (x2 : Vec Ideal S1x512 .f32)
  (x3 : Vec Ideal S512x512 .f32) (x4 : Vec Ideal S1x512 .f32) (x5 : Vec Ideal S512x128 .f32) (x6 : Vec Ideal S1x128 .f32)
  (x7 : Vec Ideal S128x4 .f32) (x8 : Vec Ideal S1x4 .f32)

/-- The edge embedding of row `r` of a tile whose feature buffer holds `X`. -/
def edgeK (r : Fin 2048) (j : Fin 512) : EReal :=
  mlp (fun l => X (ix2 r l)) (fun l k => x1 (ix2 l k)) (fun k => x2 (ix2 0 k)) (fun k j => x3 (ix2 k j)) (fun j => x4 (ix2 0 j)) j

/-- The type probabilities of row `r`. -/
def typeK (r : Fin 2048) (a : Fin 4) : EReal :=
  softmax (mlp (edgeK X x1 x2 x3 x4 r) (fun l k => x5 (ix2 l k)) (fun k => x6 (ix2 0 k)) (fun k a => x7 (ix2 k a))
    (fun a => x8 (ix2 0 a))) a

/-- A buffer stored whole by one store holds that store's value, and a whole load reads the buffer. -/
theorem outEdge_eq : outEdge (F := Ideal) X x1 x2 x3 x4 = k0_pay1 (F := Ideal) X x1 x2 x3 x4 := by
  unfold outEdge
  rw [View.canon_unit_zero hz]
  simp only [View.ld_unit_zero (S := S2048x512) hz, View.ld_unit_zero (S := S512x512) hz, View.ld_unit_zero (S := S1x512) hz]

theorem logits_eq : logits (F := Ideal) X x1 x2 x3 x4 x5 x6 x7 = k0_pay2 (F := Ideal) X x1 x2 x3 x4 x5 x6 x7 := by
  unfold logits
  simp only [View.ld_unit_zero (S := S2048x512) hz, View.ld_unit_zero (S := S512x512) hz, View.ld_unit_zero (S := S1x512) hz,
    View.ld_unit_zero (S := S512x128) hz, View.ld_unit_zero (S := S1x128) hz, View.ld_unit_zero (S := S128x4) hz]

theorem outType_eq (z : FVec Ideal S2048x4 .f32) : outType (F := Ideal) z x8 = k0_pay3 (F := Ideal) z x8 := by
  unfold outType
  rw [View.canon_unit_zero hz]
  simp only [View.ld_unit_zero (S := S1x4) hz]

theorem outW_eq (z : FVec Ideal S2048x4 .f32) : outW (F := Ideal) z x8 = k0_pay4 (F := Ideal) z x8 := by
  unfold outW
  rw [View.canon_unit_zero hz]
  simp only [View.ld_unit_zero (S := S1x4) hz]

theorem outG_eq (z : FVec Ideal S2048x4 .f32) : outG (F := Ideal) z x8 = k0_pay5 (F := Ideal) z x8 := by
  unfold outG
  rw [View.canon_unit_zero hz]
  simp only [View.ld_unit_zero (S := S1x4) hz]

/-- Row `r` of the edge-embedding buffer. -/
theorem outEdge_apply (r : Fin 2048) (j : Fin 512) :
    outEdge (F := Ideal) X x1 x2 x3 x4 (ix2 r j) = edgeK X x1 x2 x3 x4 r j := by
  rw [outEdge_eq]; exact edge_apply X x1 x2 x3 x4 r j

/-- The four logits of row `r`, the last bias added: the second network of the row's embedding. -/
theorem logits_bias (r : Fin 2048) (a : Fin 4) :
    logits (F := Ideal) X x1 x2 x3 x4 x5 x6 x7 (ix2 r a) + x8 (ix2 0 a)
      = mlp (edgeK X x1 x2 x3 x4 r) (fun l k => x5 (ix2 l k)) (fun k => x6 (ix2 0 k)) (fun k a => x7 (ix2 k a))
          (fun a => x8 (ix2 0 a)) a := by
  rw [logits_eq, prelogit_apply]
  have he : (fun l => k0_pay1 (F := Ideal) X x1 x2 x3 x4 (ix2 r l)) = edgeK X x1 x2 x3 x4 r :=
    funext fun l => edge_apply X x1 x2 x3 x4 r l
  rw [he]
  rfl

/-- Row `r` of the probabilities' buffer. -/
theorem outType_apply (r : Fin 2048) (a : Fin 4) :
    outType (F := Ideal) (logits (F := Ideal) X x1 x2 x3 x4 x5 x6 x7) x8 (ix2 r a) = typeK X x1 x2 x3 x4 x5 x6 x7 x8 r a := by
  rw [outType_eq, type_apply]
  unfold typeK
  exact congrArg (fun z => softmax z a) (funext fun a' => logits_bias X x1 x2 x3 x4 x5 x6 x7 x8 r a')

/-- The weights' buffer at channel `a`, row `r`. -/
theorem outW_apply (a : Fin 4) (r : Fin 2048) :
    outW (F := Ideal) (logits (F := Ideal) X x1 x2 x3 x4 x5 x6 x7) x8 (ix2 a r)
      = weights (typeK X x1 x2 x3 x4 x5 x6 x7 x8 r) a := by
  rw [outW_eq, weights_apply]
  refine congrArg (fun p => weights p a) (funext fun a' => ?_)
  rw [← outType_eq]
  exact outType_apply X x1 x2 x3 x4 x5 x6 x7 x8 r a'

/-- The gated weights' buffer at channel `a`, row `r`. -/
theorem outG_apply (a : Fin 4) (r : Fin 2048) :
    outG (F := Ideal) (logits (F := Ideal) X x1 x2 x3 x4 x5 x6 x7) x8 (ix2 a r)
      = gate (weights (typeK X x1 x2 x3 x4 x5 x6 x7 x8 r) a) := by
  rw [outG_eq, gate_apply, ← outW_eq]
  exact congrArg gate (outW_apply X x1 x2 x3 x4 x5 x6 x7 x8 a r)

/-! ## A row of the outputs depends on that row of the features only -/

variable (X' : Vec Ideal S2048x512 .f32)

theorem edgeK_congr (r : Fin 2048) (h : ∀ l, X (ix2 r l) = X' (ix2 r l)) :
    edgeK X x1 x2 x3 x4 r = edgeK X' x1 x2 x3 x4 r := by
  funext j; unfold edgeK; rw [show (fun l => X (ix2 r l)) = fun l => X' (ix2 r l) from funext h]

theorem typeK_congr (r : Fin 2048) (h : ∀ l, X (ix2 r l) = X' (ix2 r l)) :
    typeK X x1 x2 x3 x4 x5 x6 x7 x8 r = typeK X' x1 x2 x3 x4 x5 x6 x7 x8 r := by
  funext a; unfold typeK; rw [edgeK_congr X x1 x2 x3 x4 X' r h]

/-! ## A tile's row against the arrays' row it was fetched from -/

section Against

variable (A1 : (⟨2, ![89700, 512]⟩ : Shape).Idx → EReal) (A2 : (⟨2, ![512, 512]⟩ : Shape).Idx → EReal)
  (A3 : (⟨1, ![512]⟩ : Shape).Idx → EReal) (A4 : (⟨2, ![512, 512]⟩ : Shape).Idx → EReal) (A5 : (⟨1, ![512]⟩ : Shape).Idx → EReal)
  (A6 : (⟨2, ![512, 128]⟩ : Shape).Idx → EReal) (A7 : (⟨1, ![128]⟩ : Shape).Idx → EReal)
  (A8 : (⟨2, ![128, 4]⟩ : Shape).Idx → EReal) (A9 : (⟨1, ![4]⟩ : Shape).Idx → EReal)

/-- If row `p` of the feature buffer is row `R` of the feature array and the weight buffers hold the weight arrays
    (each bias as a one-row matrix), row `p` of the tile's embedding is row `R` of the array's. -/
theorem edgeK_eq_edgeRow (p : Fin 2048) (R : Fin 89700) (hx : ∀ l, X (ix2 p l) = A1 (ix2 R l))
    (h1 : ∀ l k, x1 (ix2 l k) = A2 (ix2 l k)) (h2 : ∀ k, x2 (ix2 0 k) = A3 (ix1 k))
    (h3 : ∀ k j, x3 (ix2 k j) = A4 (ix2 k j)) (h4 : ∀ j, x4 (ix2 0 j) = A5 (ix1 j)) :
    edgeK X x1 x2 x3 x4 p = edgeRow A1 A2 A3 A4 A5 R := by
  funext j; unfold edgeK edgeRow; simp only [hx, h1, h2, h3, h4]

/-- Likewise the row's type probabilities. -/
theorem typeK_eq_typeRow (p : Fin 2048) (R : Fin 89700) (hx : ∀ l, X (ix2 p l) = A1 (ix2 R l))
    (h1 : ∀ l k, x1 (ix2 l k) = A2 (ix2 l k)) (h2 : ∀ k, x2 (ix2 0 k) = A3 (ix1 k))
    (h3 : ∀ k j, x3 (ix2 k j) = A4 (ix2 k j)) (h4 : ∀ j, x4 (ix2 0 j) = A5 (ix1 j))
    (h5 : ∀ l k, x5 (ix2 l k) = A6 (ix2 l k)) (h6 : ∀ k, x6 (ix2 0 k) = A7 (ix1 k))
    (h7 : ∀ k a, x7 (ix2 k a) = A8 (ix2 k a)) (h8 : ∀ a, x8 (ix2 0 a) = A9 (ix1 a)) :
    typeK X x1 x2 x3 x4 x5 x6 x7 x8 p = typeRow A1 A2 A3 A4 A5 A6 A7 A8 A9 R := by
  funext a; unfold typeK typeRow
  rw [edgeK_eq_edgeRow X x1 x2 x3 x4 A1 A2 A3 A4 A5 p R hx h1 h2 h3 h4]
  simp only [h5, h6, h7, h8]

end Against

end Cert.KernelIdeal.Rows

end
-- ==== Proof.Blocks.lean ====
/-
  The value run at the extended reals: the body obligation with every buffer named.

  At the last grid point the feature buffer's rows past the array's end hold words nothing
  names, and the body computes output rows from them too. The obligation of a window whose
  blocks overhang its array states the buffer only on the part its transfers move, so what has
  to be shown is that this part of each output — its rows inside the array — is the same
  whatever the feature buffer holds past the array's end. It is: row `r` of every output is a
  function of row `r` of the features.
-/
import proofs.«174127_j84610855731459_2_alg».proof.Proof.Tiles
import proofs.«174127_j84610855731459_2_alg».proof.Proof.Rows

set_option maxRecDepth 16384

noncomputable section

namespace Cert.KernelIdeal.Blocks

open Cert.KernelIdeal Cert.KernelIdeal.Gen Cert.KernelIdeal.Body Cert.KernelIdeal.Tiles Cert.KernelIdeal.Rows Cert.LinkSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

theorem after0_9 (c : Dev nD) (t : Fin cfg0.N) : (dats m 0 c).after 9 t
    = outEdge (xtile m c t) (iblk m c 1 t) (iblk m c 2 t) (iblk m c 3 t) (iblk m c 4 t) := by dsimp only [dats]
theorem after0_10 (c : Dev nD) (t : Fin cfg0.N) : (dats m 0 c).after 10 t = outType (ztile m c t) (iblk m c 8 t) := by
  dsimp only [dats]
theorem after0_11 (c : Dev nD) (t : Fin cfg0.N) : (dats m 0 c).after 11 t = outW (ztile m c t) (iblk m c 8 t) := by
  dsimp only [dats]
theorem after0_12 (c : Dev nD) (t : Fin cfg0.N) : (dats m 0 c).after 12 t = outG (ztile m c t) (iblk m c 8 t) := by
  dsimp only [dats]

/-! ## How many rows and columns each transfer moves, decided over the grid -/

/-- At every point the feature window moves all 512 columns; the two row-major outputs move as many rows as the
    feature window and all their columns; the two channel-major outputs move all 4 channels and as many columns as the
    feature window moves rows. -/
theorem size_facts : ∀ t : Fin cfg0.N,
    win0_0.xsize (grid0.coords t) (1 : Fin 2) = 512
    ∧ win0_9.xsize (grid0.coords t) (0 : Fin 2) = win0_0.xsize (grid0.coords t) (0 : Fin 2)
    ∧ win0_9.xsize (grid0.coords t) (1 : Fin 2) = 512
    ∧ win0_10.xsize (grid0.coords t) (0 : Fin 2) = win0_0.xsize (grid0.coords t) (0 : Fin 2)
    ∧ win0_10.xsize (grid0.coords t) (1 : Fin 2) = 4
    ∧ win0_11.xsize (grid0.coords t) (0 : Fin 2) = 4
    ∧ win0_11.xsize (grid0.coords t) (1 : Fin 2) = win0_0.xsize (grid0.coords t) (0 : Fin 2)
    ∧ win0_12.xsize (grid0.coords t) (0 : Fin 2) = 4
    ∧ win0_12.xsize (grid0.coords t) (1 : Fin 2) = win0_0.xsize (grid0.coords t) (0 : Fin 2) :=
  (by decide +kernel : ∀ t : Fin grid0.N, _)

/-- On a row the fetch fills, the feature buffer holds the fetched row, whatever it held before. -/
theorem fill_row (t : Fin cfg0.N) (d d' : S2048x512.Idx → EReal) (g : (win0_0.xblock (grid0.coords t)).Idx → EReal)
    (r : Fin 2048) (hr : r.val < win0_0.xsize (grid0.coords t) (0 : Fin 2)) (l : Fin 512) :
    win0_0.fill (grid0.coords t) d g (ix2 r l) = win0_0.fill (grid0.coords t) d' g (ix2 r l) := by
  have hm : win0_0.moved (grid0.coords t) (ix2 r l) = true := (win0_0.moved_iff _ _).mpr fun a => by
    match a with
    | ⟨0, _⟩ => exact hr
    | ⟨1, _⟩ =>
      show l.val < win0_0.xsize (grid0.coords t) (1 : Fin 2)
      rw [(size_facts t).1]; exact l.isLt
  unfold Window.fill
  rw [dif_pos hm, dif_pos hm]

variable (x1 : Vec Ideal S512x512 .f32) (x2 : Vec Ideal S1x512 .f32) (x3 : Vec Ideal S512x512 .f32) (x4 : Vec Ideal S1x512 .f32)
  (x5 : Vec Ideal S512x128 .f32) (x6 : Vec Ideal S1x128 .f32) (x7 : Vec Ideal S128x4 .f32) (x8 : Vec Ideal S1x4 .f32)

/-- The rows of the edge-embedding buffer that are written back do not depend on what the feature buffer held past
    the array's end. -/
theorem cutEdge (t : Fin cfg0.N) (d d' : S2048x512.Idx → EReal) (g : (win0_0.xblock (grid0.coords t)).Idx → EReal) :
    win0_9.cut (grid0.coords t) (outEdge (F := Ideal) (win0_0.fill (grid0.coords t) d g) x1 x2 x3 x4)
      = win0_9.cut (grid0.coords t) (outEdge (F := Ideal) (win0_0.fill (grid0.coords t) d' g) x1 x2 x3 x4) := by
  funext y
  obtain ⟨p, q, hpq, hp⟩ : ∃ (p : Fin 2048) (q : Fin 512), win0_9.xinj (grid0.coords t) y = ix2 p q ∧ p.val = (y 0).val :=
    ⟨_, _, eq_ix2 _, rfl⟩
  show outEdge (F := Ideal) _ x1 x2 x3 x4 (win0_9.xinj (grid0.coords t) y) = outEdge (F := Ideal) _ x1 x2 x3 x4 (win0_9.xinj (grid0.coords t) y)
  rw [hpq, outEdge_apply, outEdge_apply]
  refine congrFun (edgeK_congr _ x1 x2 x3 x4 _ p fun l => fill_row t d d' g p ?_ l) q
  rw [hp, ← (size_facts t).2.1]; exact (y 0).isLt

/-- Likewise the probabilities' buffer, -/
theorem cutType (t : Fin cfg0.N) (d d' : S2048x512.Idx → EReal) (g : (win0_0.xblock (grid0.coords t)).Idx → EReal) :
    win0_10.cut (grid0.coords t) (outType (F := Ideal) (logits (F := Ideal) (win0_0.fill (grid0.coords t) d g) x1 x2 x3 x4 x5 x6 x7) x8)
      = win0_10.cut (grid0.coords t) (outType (F := Ideal) (logits (F := Ideal) (win0_0.fill (grid0.coords t) d' g) x1 x2 x3 x4 x5 x6 x7) x8) := by
  funext y
  obtain ⟨p, q, hpq, hp⟩ : ∃ (p : Fin 2048) (q : Fin 4), win0_10.xinj (grid0.coords t) y = ix2 p q ∧ p.val = (y 0).val :=
    ⟨_, _, eq_ix2 _, rfl⟩
  show outType (F := Ideal) _ x8 (win0_10.xinj (grid0.coords t) y) = outType (F := Ideal) _ x8 (win0_10.xinj (grid0.coords t) y)
  rw [hpq, outType_apply, outType_apply]
  refine congrFun (typeK_congr _ x1 x2 x3 x4 x5 x6 x7 x8 _ p fun l => fill_row t d d' g p ?_ l) q
  rw [hp, ← (size_facts t).2.2.2.1]; exact (y 0).isLt

/-- the weights' buffer (its columns are the tile's rows), -/
theorem cutW (t : Fin cfg0.N) (d d' : S2048x512.Idx → EReal) (g : (win0_0.xblock (grid0.coords t)).Idx → EReal) :
    win0_11.cut (grid0.coords t) (outW (F := Ideal) (logits (F := Ideal) (win0_0.fill (grid0.coords t) d g) x1 x2 x3 x4 x5 x6 x7) x8)
      = win0_11.cut (grid0.coords t) (outW (F := Ideal) (logits (F := Ideal) (win0_0.fill (grid0.coords t) d' g) x1 x2 x3 x4 x5 x6 x7) x8) := by
  funext y
  obtain ⟨q, p, hpq, hp⟩ : ∃ (q : Fin 4) (p : Fin 2048), win0_11.xinj (grid0.coords t) y = ix2 q p ∧ p.val = (y 1).val :=
    ⟨_, _, eq_ix2 _, rfl⟩
  show outW (F := Ideal) _ x8 (win0_11.xinj (grid0.coords t) y) = outW (F := Ideal) _ x8 (win0_11.xinj (grid0.coords t) y)
  rw [hpq, outW_apply, outW_apply]
  refine congrArg (fun z => weights z q) (typeK_congr _ x1 x2 x3 x4 x5 x6 x7 x8 _ p fun l => fill_row t d d' g p ?_ l)
  rw [hp, ← (size_facts t).2.2.2.2.2.2.1]; exact (y 1).isLt

/-- and the gated weights' buffer. -/
theorem cutG (t : Fin cfg0.N) (d d' : S2048x512.Idx → EReal) (g : (win0_0.xblock (grid0.coords t)).Idx → EReal) :
    win0_12.cut (grid0.coords t) (outG (F := Ideal) (logits (F := Ideal) (win0_0.fill (grid0.coords t) d g) x1 x2 x3 x4 x5 x6 x7) x8)
      = win0_12.cut (grid0.coords t) (outG (F := Ideal) (logits (F := Ideal) (win0_0.fill (grid0.coords t) d' g) x1 x2 x3 x4 x5 x6 x7) x8) := by
  funext y
  obtain ⟨q, p, hpq, hp⟩ : ∃ (q : Fin 4) (p : Fin 2048), win0_12.xinj (grid0.coords t) y = ix2 q p ∧ p.val = (y 1).val :=
    ⟨_, _, eq_ix2 _, rfl⟩
  show outG (F := Ideal) _ x8 (win0_12.xinj (grid0.coords t) y) = outG (F := Ideal) _ x8 (win0_12.xinj (grid0.coords t) y)
  rw [hpq, outG_apply, outG_apply]
  refine congrArg (fun z => gate (weights z q)) (typeK_congr _ x1 x2 x3 x4 x5 x6 x7 x8 _ p fun l => fill_row t d d' g p ?_ l)
  rw [hp, ← (size_facts t).2.2.2.2.2.2.2.2]; exact (y 1).isLt

/-! ## The body obligation, every buffer named -/

def valuePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def valuePost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare
        (win0_9.fill (grid0.coords t) d (win0_9.cut (grid0.coords t) ((dats m 0 c).after 9 t))))
    ∗ (∃ d, owns (c : Thread nD τ) (st0_10 t) fullShare
        (win0_10.fill (grid0.coords t) d (win0_10.cut (grid0.coords t) ((dats m 0 c).after 10 t))))
    ∗ (∃ d, owns (c : Thread nD τ) (st0_11 t) fullShare
        (win0_11.fill (grid0.coords t) d (win0_11.cut (grid0.coords t) ((dats m 0 c).after 11 t))))
    ∗ (∃ d, owns (c : Thread nD τ) (st0_12 t) fullShare
        (win0_12.fill (grid0.coords t) d (win0_12.cut (grid0.coords t) ((dats m 0 c).after 12 t)))))

theorem value_body (c : Dev nD) (t : Fin cfg0.N) :
    valuePre m c t ⊢ wp frame (wpE (defs₀ (F := Ideal)) Variants.none c none) Set.univ (bodyAt0 t) (fun _ => valuePost m c t) := by
  unfold valuePre valuePost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, cut_xtile,
    after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩⟩
  rw [before0_0 m c t d0, before0_1 m c t d1, before0_2 m c t d2, before0_3 m c t d3, before0_4 m c t d4,
    before0_5 m c t d5, before0_6 m c t d6, before0_7 m c t d7, before0_8 m c t d8]
  iapply (sound_kernel (F := Ideal) c Set.univ (grid0.coords t) _ _ _ _ _ _ _ _ _ _ _ _ _ _ _ _ _ _ _ _ _ _ _ _ _ _
    (win0_0.fill (grid0.coords t) d0 (iblk m c 0 t)) (iblk m c 1 t) (iblk m c 2 t) (iblk m c 3 t) (iblk m c 4 t)
    (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  -- each output buffer holds the body's store computed from the buffer as found; on the part written back that is the
  -- store computed from the tile filled out with the zero word
  isplitl [H9]
  · iexists (outEdge (F := Ideal) (win0_0.fill (grid0.coords t) d0 (iblk m c 0 t)) (iblk m c 1 t) (iblk m c 2 t) (iblk m c 3 t) (iblk m c 4 t))
    unfold xtile
    rw [win0_9.fill_congr_cut (grid0.coords t) (cutEdge (iblk m c 1 t) (iblk m c 2 t) (iblk m c 3 t) (iblk m c 4 t) t d0 _ (iblk m c 0 t))]
    iexact H9
  isplitl [H10]
  · iexists (outType (F := Ideal) (logits (F := Ideal) (win0_0.fill (grid0.coords t) d0 (iblk m c 0 t)) (iblk m c 1 t) (iblk m c 2 t) (iblk m c 3 t) (iblk m c 4 t) (iblk m c 5 t) (iblk m c 6 t) (iblk m c 7 t)) (iblk m c 8 t))
    unfold ztile xtile
    rw [win0_10.fill_congr_cut (grid0.coords t) (cutType (iblk m c 1 t) (iblk m c 2 t) (iblk m c 3 t) (iblk m c 4 t) (iblk m c 5 t) (iblk m c 6 t) (iblk m c 7 t) (iblk m c 8 t) t d0 _ (iblk m c 0 t))]
    iexact H10
  isplitl [H11]
  · iexists (outW (F := Ideal) (logits (F := Ideal) (win0_0.fill (grid0.coords t) d0 (iblk m c 0 t)) (iblk m c 1 t) (iblk m c 2 t) (iblk m c 3 t) (iblk m c 4 t) (iblk m c 5 t) (iblk m c 6 t) (iblk m c 7 t)) (iblk m c 8 t))
    unfold ztile xtile
    rw [win0_11.fill_congr_cut (grid0.coords t) (cutW (iblk m c 1 t) (iblk m c 2 t) (iblk m c 3 t) (iblk m c 4 t) (iblk m c 5 t) (iblk m c 6 t) (iblk m c 7 t) (iblk m c 8 t) t d0 _ (iblk m c 0 t))]
    iexact H11
  iexists (outG (F := Ideal) (logits (F := Ideal) (win0_0.fill (grid0.coords t) d0 (iblk m c 0 t)) (iblk m c 1 t) (iblk m c 2 t) (iblk m c 3 t) (iblk m c 4 t) (iblk m c 5 t) (iblk m c 6 t) (iblk m c 7 t)) (iblk m c 8 t))
  unfold ztile xtile
  rw [win0_12.fill_congr_cut (grid0.coords t) (cutG (iblk m c 1 t) (iblk m c 2 t) (iblk m c 3 t) (iblk m c 4 t) (iblk m c 5 t) (iblk m c 6 t) (iblk m c 7 t) (iblk m c 8 t) t d0 _ (iblk m c 0 t))]
  iexact H12

/-- The library's body obligation, at every point, nothing forgotten. -/
theorem value_obligation (c : Dev nD) :
    BodyObligationLoose (dats (F := Ideal) m 0 c) (defs₀ (F := Ideal)) Variants.none () Set.univ := fun t => by
  rw [bigSep_W0, bigSep_W0]
  exact value_body m c t

set_option backward.isDefEq.respectTransparency.types false in
/-- The run with every array named: each ends at what the library computes from the proof data. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => value_obligation m c) (hshare := fun c => (dats m 0 c).share_full fun _ => rfl)
    (howed := fun _ _ => rfl) (V := V m) (hmain := hmain m Variants.none) (hA := A_eq m) (hΦ := fun _ _ => rfl)

end Cert.KernelIdeal.Blocks

end
-- ==== Proof.Arrays.lean ====
/-
  From the tiles to the four whole arrays.

  Point `t` of the grid fetches feature rows `2048·t …` and writes back rows `2048·t …` of the two
  row-major outputs and columns `2048·t …` of the two channel-major ones; the weight and bias
  buffers hold the whole weight arrays (a bias through its reshape to one row). So what point
  `t` writes back is block `t` of one function of the argument arrays — the specification's four
  arrays — and since the 44 blocks, the last one cut at row 89700, cover each output array,
  every output ends holding the specification's array.
-/
import proofs.«174127_j84610855731459_2_alg».proof.Proof.Blocks
import Idealize.ShloMosaic.Lib.StableHlo.Run
import Idealize.ShloMosaic.Lib.ValueLayout
import Idealize.ShloMosaic.Lib.Pipeline.Value

set_option maxRecDepth 16384

noncomputable section

namespace Cert.KernelIdeal.Arrays

open Cert.KernelIdeal Cert.KernelIdeal.Gen Cert.KernelIdeal.Body Cert.KernelIdeal.Tiles Cert.KernelIdeal.Rows
open Cert.KernelIdeal.Blocks Cert.LinkSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation BodyObligationLoose cellOf)

variable (m : (ℓ : Loc nD τ sig) → Buf (Elt Ideal) ℓ) (ρ : Dev nD → PrngReg)

/-! ## The specification's four arrays at the argument arrays -/

def edgeA (c : Dev nD) : S89700x512.Idx → EReal := edgeEmbed (m ((c : Thread nD τ).loc main_arg1)) (m ((c : Thread nD τ).loc main_arg2)) (m ((c : Thread nD τ).loc main_arg3)) (m ((c : Thread nD τ).loc main_arg4)) (m ((c : Thread nD τ).loc main_arg5))
def typeA (c : Dev nD) : S89700x4.Idx → EReal := typeOutput (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
def wA (c : Dev nD) : S4x89700.Idx → EReal := typesW (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
def gA (c : Dev nD) : S4x89700.Idx → EReal := multiW (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-! ## The printed index maps, decided over the grid -/

/-- The feature window and the two row-major outputs are at block row `t`, block column 0; the two channel-major
    outputs at block row 0, block column `t`; the eight weight windows at block (0, 0). -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = 0 ∧ win0_11.index t (1 : Fin 2) = t.val
    ∧ win0_12.index t (0 : Fin 2) = 0 ∧ win0_12.index t (1 : Fin 2) = t.val :=
  (by decide +kernel : ∀ t : Fin grid0.N, _)

theorem idx_weights : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every tile moves 2048 rows but the last, which moves the 1636 that are left. -/
theorem rows_fact : ∀ t : Fin cfg0.N, win0_0.xsize (grid0.coords t) (0 : Fin 2) = if t.val = 43 then 1636 else 2048 :=
  (by decide +kernel : ∀ t : Fin grid0.N, _)

/-! ## What the input buffers hold, against the argument arrays -/

/-- Row `p` of the feature tile at point `t`, a row the fetch fills, is row `2048·t + p` of the feature array. -/
theorem xtile_row (c : Dev nD) (t : Fin cfg0.N) (p : Fin 2048) (hp : p.val < win0_0.xsize (grid0.coords t) (0 : Fin 2))
    (l : Fin 512) (R : Fin 89700) (hR : R.val = t.val * 2048 + p.val) :
    xtile m c t (ix2 p l) = (m ((c : Thread nD τ).loc main_arg1)) (ix2 R l) := by
  have hm : win0_0.moved (grid0.coords t) (ix2 p l) = true := (win0_0.moved_iff _ _).mpr fun a => by
    match a with
    | ⟨0, _⟩ => exact hp
    | ⟨1, _⟩ =>
      show l.val < win0_0.xsize (grid0.coords t) (1 : Fin 2)
      rw [(size_facts t).1]; exact l.isLt
  unfold xtile Window.fill
  rw [dif_pos hm]
  show V m c main_arg1 (((cfg0.win 0).blk t).view.emb _) = _
  rw [V_main_arg1]
  refine congrArg _ (funext fun a => Fin.ext ?_)
  obtain ⟨e0, e1, -⟩ := idx_facts t
  match a with
  | ⟨0, _⟩ => show win0_0.index t (0 : Fin 2) * 2048 + 1 * p.val = R.val; rw [e0, hR]; omega
  | ⟨1, _⟩ => show win0_0.index t (1 : Fin 2) * 512 + 1 * l.val = l.val; rw [e1]; omega

theorem w1_apply (c : Dev nD) (t : Fin cfg0.N) (l : Fin 512) (k : Fin 512) : iblk m c 1 t (ix2 l k) = (m ((c : Thread nD τ).loc main_arg2)) (ix2 l k) := by
  show V m c main_arg2 (((cfg0.win 1).blk t).view.emb (ix2 l k)) = _
  rw [V_main_arg2]
  refine congrArg _ (funext fun a => Fin.ext ?_)
  obtain ⟨e0, e1, -⟩ := idx_weights t
  match a with
  | ⟨0, _⟩ => show win0_1.index t (0 : Fin 2) * 512 + 1 * l.val = l.val; rw [e0]; omega
  | ⟨1, _⟩ => show win0_1.index t (1 : Fin 2) * 512 + 1 * k.val = k.val; rw [e1]; omega

theorem w3_apply (c : Dev nD) (t : Fin cfg0.N) (l : Fin 512) (k : Fin 512) : iblk m c 3 t (ix2 l k) = (m ((c : Thread nD τ).loc main_arg4)) (ix2 l k) := by
  show V m c main_arg4 (((cfg0.win 3).blk t).view.emb (ix2 l k)) = _
  rw [V_main_arg4]
  refine congrArg _ (funext fun a => Fin.ext ?_)
  obtain ⟨-, -, -, -, e0, e1, -⟩ := idx_weights t
  match a with
  | ⟨0, _⟩ => show win0_3.index t (0 : Fin 2) * 512 + 1 * l.val = l.val; rw [e0]; omega
  | ⟨1, _⟩ => show win0_3.index t (1 : Fin 2) * 512 + 1 * k.val = k.val; rw [e1]; omega

theorem w5_apply (c : Dev nD) (t : Fin cfg0.N) (l : Fin 512) (k : Fin 128) : iblk m c 5 t (ix2 l k) = (m ((c : Thread nD τ).loc main_arg6)) (ix2 l k) := by
  show V m c main_arg6 (((cfg0.win 5).blk t).view.emb (ix2 l k)) = _
  rw [V_main_arg6]
  refine congrArg _ (funext fun a => Fin.ext ?_)
  obtain ⟨-, -, -, -, -, -, -, -, e0, e1, -⟩ := idx_weights t
  match a with
  | ⟨0, _⟩ => show win0_5.index t (0 : Fin 2) * 512 + 1 * l.val = l.val; rw [e0]; omega
  | ⟨1, _⟩ => show win0_5.index t (1 : Fin 2) * 128 + 1 * k.val = k.val; rw [e1]; omega

theorem w7_apply (c : Dev nD) (t : Fin cfg0.N) (l : Fin 128) (k : Fin 4) : iblk m c 7 t (ix2 l k) = (m ((c : Thread nD τ).loc main_arg8)) (ix2 l k) := by
  show V m c main_arg8 (((cfg0.win 7).blk t).view.emb (ix2 l k)) = _
  rw [V_main_arg8]
  refine congrArg _ (funext fun a => Fin.ext ?_)
  obtain ⟨-, -, -, -, -, -, -, -, -, -, -, -, e0, e1, -⟩ := idx_weights t
  match a with
  | ⟨0, _⟩ => show win0_7.index t (0 : Fin 2) * 128 + 1 * l.val = l.val; rw [e0]; omega
  | ⟨1, _⟩ => show win0_7.index t (1 : Fin 2) * 4 + 1 * k.val = k.val; rw [e1]; omega

/-- The four bias rows the region finds are the bias arrays, reshaped to one row by @main before the region. -/
theorem V_b1 (c : Dev nD) : (V m c main_v0 : S1x512.Idx → EReal) = shapeCast S1x512 (m ((c : Thread nD τ).loc main_arg3)) shapeCasts_S512_S1x512 := by
  dsimp only [Gen.V, Gen.hostOps0]; after_results; rfl
theorem V_b2 (c : Dev nD) : (V m c main_v1 : S1x512.Idx → EReal) = shapeCast S1x512 (m ((c : Thread nD τ).loc main_arg5)) shapeCasts_S512_S1x512 := by
  dsimp only [Gen.V, Gen.hostOps0]; after_results; rfl
theorem V_b3 (c : Dev nD) : (V m c main_v2 : S1x128.Idx → EReal) = shapeCast S1x128 (m ((c : Thread nD τ).loc main_arg7)) shapeCasts_S128_S1x128 := by
  dsimp only [Gen.V, Gen.hostOps0]; after_results; rfl
theorem V_b4 (c : Dev nD) : (V m c main_v3 : S1x4.Idx → EReal) = shapeCast S1x4 (m ((c : Thread nD τ).loc main_arg9)) shapeCasts_S4_S1x4 := by
  dsimp only [Gen.V, Gen.hostOps0]; after_results; rfl

theorem b2_apply (c : Dev nD) (t : Fin cfg0.N) (k : Fin 512) : iblk m c 2 t (ix2 0 k) = (m ((c : Thread nD τ).loc main_arg3)) (ix1 k) := by
  show (V m c main_v0 : S1x512.Idx → EReal) (((cfg0.win 2).blk t).view.emb (ix2 0 k)) = _
  have he : ((cfg0.win 2).blk t).view.emb (ix2 (0 : Fin 1) k) = ix2 (0 : Fin 1) k := funext fun a => Fin.ext (by
    obtain ⟨-, -, e0, e1, -⟩ := idx_weights t
    match a with
    | ⟨0, _⟩ => show win0_2.index t (0 : Fin 2) * 1 + 1 * 0 = 0; rw [e0]
    | ⟨1, _⟩ => show win0_2.index t (1 : Fin 2) * 512 + 1 * k.val = k.val; rw [e1]; omega)
  rw [he, V_b1]
  exact shapeCast_a_1a_apply _ _ 0 k

theorem b4_apply (c : Dev nD) (t : Fin cfg0.N) (k : Fin 512) : iblk m c 4 t (ix2 0 k) = (m ((c : Thread nD τ).loc main_arg5)) (ix1 k) := by
  show (V m c main_v1 : S1x512.Idx → EReal) (((cfg0.win 4).blk t).view.emb (ix2 0 k)) = _
  have he : ((cfg0.win 4).blk t).view.emb (ix2 (0 : Fin 1) k) = ix2 (0 : Fin 1) k := funext fun a => Fin.ext (by
    obtain ⟨-, -, -, -, -, -, e0, e1, -⟩ := idx_weights t
    match a with
    | ⟨0, _⟩ => show win0_4.index t (0 : Fin 2) * 1 + 1 * 0 = 0; rw [e0]
    | ⟨1, _⟩ => show win0_4.index t (1 : Fin 2) * 512 + 1 * k.val = k.val; rw [e1]; omega)
  rw [he, V_b2]
  exact shapeCast_a_1a_apply _ _ 0 k

theorem b6_apply (c : Dev nD) (t : Fin cfg0.N) (k : Fin 128) : iblk m c 6 t (ix2 0 k) = (m ((c : Thread nD τ).loc main_arg7)) (ix1 k) := by
  show (V m c main_v2 : S1x128.Idx → EReal) (((cfg0.win 6).blk t).view.emb (ix2 0 k)) = _
  have he : ((cfg0.win 6).blk t).view.emb (ix2 (0 : Fin 1) k) = ix2 (0 : Fin 1) k := funext fun a => Fin.ext (by
    obtain ⟨-, -, -, -, -, -, -, -, -, -, e0, e1, -⟩ := idx_weights t
    match a with
    | ⟨0, _⟩ => show win0_6.index t (0 : Fin 2) * 1 + 1 * 0 = 0; rw [e0]
    | ⟨1, _⟩ => show win0_6.index t (1 : Fin 2) * 128 + 1 * k.val = k.val; rw [e1]; omega)
  rw [he, V_b3]
  exact shapeCast_a_1a_apply _ _ 0 k

theorem b8_apply (c : Dev nD) (t : Fin cfg0.N) (k : Fin 4) : iblk m c 8 t (ix2 0 k) = (m ((c : Thread nD τ).loc main_arg9)) (ix1 k) := by
  show (V m c main_v3 : S1x4.Idx → EReal) (((cfg0.win 8).blk t).view.emb (ix2 0 k)) = _
  have he : ((cfg0.win 8).blk t).view.emb (ix2 (0 : Fin 1) k) = ix2 (0 : Fin 1) k := funext fun a => Fin.ext (by
    obtain ⟨-, -, -, -, -, -, -, -, -, -, -, -, -, -, e0, e1⟩ := idx_weights t
    match a with
    | ⟨0, _⟩ => show win0_8.index t (0 : Fin 2) * 1 + 1 * 0 = 0; rw [e0]
    | ⟨1, _⟩ => show win0_8.index t (1 : Fin 2) * 4 + 1 * k.val = k.val; rw [e1]; omega)
  rw [he, V_b4]
  exact shapeCast_a_1a_apply _ _ 0 k

/-- Row `p` of the tile's embedding at point `t` is row `2048·t + p` of the specification's. -/
theorem edge_tile (c : Dev nD) (t : Fin cfg0.N) (p : Fin 2048) (hp : p.val < win0_0.xsize (grid0.coords t) (0 : Fin 2))
    (R : Fin 89700) (hR : R.val = t.val * 2048 + p.val) :
    edgeK (xtile m c t) (iblk m c 1 t) (iblk m c 2 t) (iblk m c 3 t) (iblk m c 4 t) p = edgeRow (m ((c : Thread nD τ).loc main_arg1)) (m ((c : Thread nD τ).loc main_arg2)) (m ((c : Thread nD τ).loc main_arg3)) (m ((c : Thread nD τ).loc main_arg4)) (m ((c : Thread nD τ).loc main_arg5)) R :=
  edgeK_eq_edgeRow _ _ _ _ _ _ _ _ _ _ p R (fun l => xtile_row m c t p hp l R hR) (w1_apply m c t) (b2_apply m c t)
    (w3_apply m c t) (b4_apply m c t)

/-- and likewise its probabilities. -/
theorem type_tile (c : Dev nD) (t : Fin cfg0.N) (p : Fin 2048) (hp : p.val < win0_0.xsize (grid0.coords t) (0 : Fin 2))
    (R : Fin 89700) (hR : R.val = t.val * 2048 + p.val) :
    typeK (xtile m c t) (iblk m c 1 t) (iblk m c 2 t) (iblk m c 3 t) (iblk m c 4 t) (iblk m c 5 t) (iblk m c 6 t) (iblk m c 7 t) (iblk m c 8 t) p = typeRow (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) R :=
  typeK_eq_typeRow _ _ _ _ _ _ _ _ _ _ _ _ _ _ _ _ _ _ p R (fun l => xtile_row m c t p hp l R hR) (w1_apply m c t) (b2_apply m c t)
    (w3_apply m c t) (b4_apply m c t) (w5_apply m c t) (b6_apply m c t) (w7_apply m c t) (b8_apply m c t)

/-! ## What each point writes back -/

/-- Point `t` writes back block `t` of the specification's edge embeddings. -/
theorem flushedEdge (c : Dev nD) (t : Fin cfg0.N) :
    (dats m 0 c).flushed 9 t = ((cfg0.win 9).blk t).view.read (Elt Ideal) (edgeA m c) := by
  show (cfg0.win 9).cut (grid0.coords t) ((dats m 0 c).after 9 t) = _
  rw [after0_9]
  funext y
  obtain ⟨p, q, hpq, hp, hq⟩ : ∃ (p : Fin 2048) (q : Fin 512), win0_9.xinj (grid0.coords t) y = ix2 p q ∧ p.val = (y 0).val ∧ q.val = (y 1).val :=
    ⟨_, _, eq_ix2 _, rfl, rfl⟩
  obtain ⟨-, -, e0, e1, -⟩ := idx_facts t
  have hy0 : (y 0).val < win0_0.xsize (grid0.coords t) (0 : Fin 2) := by rw [← (size_facts t).2.1]; exact (y 0).isLt
  have hrows := rows_fact t
  have ht : t.val < 44 := t.isLt
  obtain ⟨R, S, hRS, hR, hS⟩ : ∃ (R : Fin 89700) (S : Fin 512), ((cfg0.win 9).blk t).view.emb y = ix2 R S
      ∧ R.val = win0_9.index t (0 : Fin 2) * 2048 + 1 * (y 0).val ∧ S.val = win0_9.index t (1 : Fin 2) * 512 + 1 * (y 1).val :=
    ⟨_, _, eq_ix2 _, rfl, rfl⟩
  show outEdge (F := Ideal) (xtile m c t) (iblk m c 1 t) (iblk m c 2 t) (iblk m c 3 t) (iblk m c 4 t) (win0_9.xinj (grid0.coords t) y) = edgeA m c (((cfg0.win 9).blk t).view.emb y)
  rw [hpq, hRS, outEdge_apply, edge_tile m c t p (by rw [hp]; exact hy0) R (by rw [hR, e0, hp]; omega)]
  have hqS : q = S := Fin.ext (by rw [hq, hS, e1]; omega)
  rw [hqS]
  rfl

/-- Point `t` writes back block `t` of the specification's type probabilities. -/
theorem flushedType (c : Dev nD) (t : Fin cfg0.N) :
    (dats m 0 c).flushed 10 t = ((cfg0.win 10).blk t).view.read (Elt Ideal) (typeA m c) := by
  show (cfg0.win 10).cut (grid0.coords t) ((dats m 0 c).after 10 t) = _
  rw [after0_10]
  funext y
  obtain ⟨p, q, hpq, hp, hq⟩ : ∃ (p : Fin 2048) (q : Fin 4), win0_10.xinj (grid0.coords t) y = ix2 p q ∧ p.val = (y 0).val ∧ q.val = (y 1).val :=
    ⟨_, _, eq_ix2 _, rfl, rfl⟩
  obtain ⟨-, -, -, -, e0, e1, -⟩ := idx_facts t
  have hy0 : (y 0).val < win0_0.xsize (grid0.coords t) (0 : Fin 2) := by rw [← (size_facts t).2.2.2.1]; exact (y 0).isLt
  obtain ⟨R, S, hRS, hR, hS⟩ : ∃ (R : Fin 89700) (S : Fin 4), ((cfg0.win 10).blk t).view.emb y = ix2 R S
      ∧ R.val = win0_10.index t (0 : Fin 2) * 2048 + 1 * (y 0).val ∧ S.val = win0_10.index t (1 : Fin 2) * 4 + 1 * (y 1).val :=
    ⟨_, _, eq_ix2 _, rfl, rfl⟩
  show outType (F := Ideal) (ztile m c t) (iblk m c 8 t) (win0_10.xinj (grid0.coords t) y) = typeA m c (((cfg0.win 10).blk t).view.emb y)
  unfold ztile
  rw [hpq, hRS, outType_apply, type_tile m c t p (by rw [hp]; exact hy0) R (by rw [hR, e0, hp]; omega)]
  have hqS : q = S := Fin.ext (by rw [hq, hS, e1]; omega)
  rw [hqS]
  rfl

/-- Point `t` writes back block `t` of the specification's weights (channel-major: the tile's rows are columns). -/
theorem flushedW (c : Dev nD) (t : Fin cfg0.N) :
    (dats m 0 c).flushed 11 t = ((cfg0.win 11).blk t).view.read (Elt Ideal) (wA m c) := by
  show (cfg0.win 11).cut (grid0.coords t) ((dats m 0 c).after 11 t) = _
  rw [after0_11]
  funext y
  obtain ⟨q, p, hpq, hq, hp⟩ : ∃ (q : Fin 4) (p : Fin 2048), win0_11.xinj (grid0.coords t) y = ix2 q p ∧ q.val = (y 0).val ∧ p.val = (y 1).val :=
    ⟨_, _, eq_ix2 _, rfl, rfl⟩
  obtain ⟨-, -, -, -, -, -, e0, e1, -⟩ := idx_facts t
  have hy1 : (y 1).val < win0_0.xsize (grid0.coords t) (0 : Fin 2) := by rw [← (size_facts t).2.2.2.2.2.2.1]; exact (y 1).isLt
  obtain ⟨S, R, hRS, hS, hR⟩ : ∃ (S : Fin 4) (R : Fin 89700), ((cfg0.win 11).blk t).view.emb y = ix2 S R
      ∧ S.val = win0_11.index t (0 : Fin 2) * 4 + 1 * (y 0).val ∧ R.val = win0_11.index t (1 : Fin 2) * 2048 + 1 * (y 1).val :=
    ⟨_, _, eq_ix2 _, rfl, rfl⟩
  show outW (F := Ideal) (ztile m c t) (iblk m c 8 t) (win0_11.xinj (grid0.coords t) y) = wA m c (((cfg0.win 11).blk t).view.emb y)
  unfold ztile
  rw [hpq, hRS, outW_apply, type_tile m c t p (by rw [hp]; exact hy1) R (by rw [hR, e1, hp]; omega)]
  have hqS : q = S := Fin.ext (by rw [hq, hS, e0]; omega)
  rw [hqS]
  rfl

/-- Point `t` writes back block `t` of the specification's gated weights. -/
theorem flushedG (c : Dev nD) (t : Fin cfg0.N) :
    (dats m 0 c).flushed 12 t = ((cfg0.win 12).blk t).view.read (Elt Ideal) (gA m c) := by
  show (cfg0.win 12).cut (grid0.coords t) ((dats m 0 c).after 12 t) = _
  rw [after0_12]
  funext y
  obtain ⟨q, p, hpq, hq, hp⟩ : ∃ (q : Fin 4) (p : Fin 2048), win0_12.xinj (grid0.coords t) y = ix2 q p ∧ q.val = (y 0).val ∧ p.val = (y 1).val :=
    ⟨_, _, eq_ix2 _, rfl, rfl⟩
  obtain ⟨-, -, -, -, -, -, -, -, e0, e1⟩ := idx_facts t
  have hy1 : (y 1).val < win0_0.xsize (grid0.coords t) (0 : Fin 2) := by rw [← (size_facts t).2.2.2.2.2.2.2.2]; exact (y 1).isLt
  obtain ⟨S, R, hRS, hS, hR⟩ : ∃ (S : Fin 4) (R : Fin 89700), ((cfg0.win 12).blk t).view.emb y = ix2 S R
      ∧ S.val = win0_12.index t (0 : Fin 2) * 4 + 1 * (y 0).val ∧ R.val = win0_12.index t (1 : Fin 2) * 2048 + 1 * (y 1).val :=
    ⟨_, _, eq_ix2 _, rfl, rfl⟩
  show outG (F := Ideal) (ztile m c t) (iblk m c 8 t) (win0_12.xinj (grid0.coords t) y) = gA m c (((cfg0.win 12).blk t).view.emb y)
  unfold ztile
  rw [hpq, hRS, outG_apply, type_tile m c t p (by rw [hp]; exact hy1) R (by rw [hR, e1, hp]; omega)]
  have hqS : q = S := Fin.ext (by rw [hq, hS, e0]; omega)
  rw [hqS]
  rfl

end Cert.KernelIdeal.Arrays

end
-- ==== Proof.Finals.lean ====
/-
  The four output arrays after the run.

  The 44 blocks of each output, the last one cut at row (or column) 89700, cover the array: the
  index with row `r` lies in the block of point `r / 2048`. Each point writes back its block of the
  specification's array, so each output array ends holding the specification's array, and the
  run of the idealized kernel ends with the four results at the specification's four arrays of
  its arguments, the arguments unchanged.
-/
import proofs.«174127_j84610855731459_2_alg».proof.Proof.Arrays

set_option maxRecDepth 16384

noncomputable section

namespace Cert.KernelIdeal.Finals

open Cert.KernelIdeal Cert.KernelIdeal.Gen Cert.KernelIdeal.Body Cert.KernelIdeal.Tiles Cert.KernelIdeal.Rows
open Cert.KernelIdeal.Blocks Cert.KernelIdeal.Arrays Cert.LinkSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- An index of the array is in point `t`'s block iff each coordinate is in the block's range on its axis, cut at the
    array's end. -/
theorem memEdge (t : Fin cfg0.N) (i : S89700x512.Idx) :
    i ∈ ((cfg0.win 9).blk t).view.set ↔ ∀ a : Fin 2, win0_9.index t a * S2048x512.size a ≤ (i a).val
      ∧ (i a).val < win0_9.index t a * S2048x512.size a + win0_9.xsize (grid0.coords t) a := by
  show i ∈ ((View.whole main_v4_0).slice (win0_9.rect t)).set ↔ _
  rw [View.set_slice_whole, Rect.mem_set_unit]
  exact Iff.rfl

/-- Every index of the array is in the block of the point that works on its row's tile. -/
theorem coverEdge (i : S89700x512.Idx) :
    ∃ t : Fin cfg0.N, (cfg0.win 9).flush t = true ∧ i ∈ ((cfg0.win 9).blk t).view.set := by
  have hiR : (i 0).val < 89700 := (i 0).isLt
  have hiO : (i 1).val < 512 := (i 1).isLt
  obtain ⟨t, htv⟩ : ∃ t : Fin cfg0.N, t.val = (i 0).val / 2048 := ⟨⟨(i 0).val / 2048, by show _ < 44; omega⟩, rfl⟩
  refine ⟨t, flush0_9 t, ?_⟩
  rw [memEdge]
  obtain ⟨-, -, eR, eO, -⟩ := idx_facts t
  have hr := rows_fact t
  have hs := size_facts t
  intro a
  match a with
  | ⟨0, _⟩ =>
    show win0_9.index t (0 : Fin 2) * 2048 ≤ (i 0).val
      ∧ (i 0).val < win0_9.index t (0 : Fin 2) * 2048 + win0_9.xsize (grid0.coords t) (0 : Fin 2)
    rw [eR, hs.2.1, hr, htv]
    split <;> omega
  | ⟨1, _⟩ =>
    show win0_9.index t (1 : Fin 2) * 512 ≤ (i 1).val
      ∧ (i 1).val < win0_9.index t (1 : Fin 2) * 512 + win0_9.xsize (grid0.coords t) (1 : Fin 2)
    rw [eO, hs.2.2.1]
    omega

/-- An index of the array is in point `t`'s block iff each coordinate is in the block's range on its axis, cut at the
    array's end. -/
theorem memType (t : Fin cfg0.N) (i : S89700x4.Idx) :
    i ∈ ((cfg0.win 10).blk t).view.set ↔ ∀ a : Fin 2, win0_10.index t a * S2048x4.size a ≤ (i a).val
      ∧ (i a).val < win0_10.index t a * S2048x4.size a + win0_10.xsize (grid0.coords t) a := by
  show i ∈ ((View.whole main_v4_1).slice (win0_10.rect t)).set ↔ _
  rw [View.set_slice_whole, Rect.mem_set_unit]
  exact Iff.rfl

/-- Every index of the array is in the block of the point that works on its row's tile. -/
theorem coverType (i : S89700x4.Idx) :
    ∃ t : Fin cfg0.N, (cfg0.win 10).flush t = true ∧ i ∈ ((cfg0.win 10).blk t).view.set := by
  have hiR : (i 0).val < 89700 := (i 0).isLt
  have hiO : (i 1).val < 4 := (i 1).isLt
  obtain ⟨t, htv⟩ : ∃ t : Fin cfg0.N, t.val = (i 0).val / 2048 := ⟨⟨(i 0).val / 2048, by show _ < 44; omega⟩, rfl⟩
  refine ⟨t, flush0_10 t, ?_⟩
  rw [memType]
  obtain ⟨-, -, -, -, eR, eO, -⟩ := idx_facts t
  have hr := rows_fact t
  have hs := size_facts t
  intro a
  match a with
  | ⟨0, _⟩ =>
    show win0_10.index t (0 : Fin 2) * 2048 ≤ (i 0).val
      ∧ (i 0).val < win0_10.index t (0 : Fin 2) * 2048 + win0_10.xsize (grid0.coords t) (0 : Fin 2)
    rw [eR, hs.2.2.2.1, hr, htv]
    split <;> omega
  | ⟨1, _⟩ =>
    show win0_10.index t (1 : Fin 2) * 4 ≤ (i 1).val
      ∧ (i 1).val < win0_10.index t (1 : Fin 2) * 4 + win0_10.xsize (grid0.coords t) (1 : Fin 2)
    rw [eO, hs.2.2.2.2.1]
    omega

/-- An index of the array is in point `t`'s block iff each coordinate is in the block's range on its axis, cut at the
    array's end. -/
theorem memW (t : Fin cfg0.N) (i : S4x89700.Idx) :
    i ∈ ((cfg0.win 11).blk t).view.set ↔ ∀ a : Fin 2, win0_11.index t a * S4x2048.size a ≤ (i a).val
      ∧ (i a).val < win0_11.index t a * S4x2048.size a + win0_11.xsize (grid0.coords t) a := by
  show i ∈ ((View.whole main_v4_2).slice (win0_11.rect t)).set ↔ _
  rw [View.set_slice_whole, Rect.mem_set_unit]
  exact Iff.rfl

/-- Every index of the array is in the block of the point that works on its row's tile. -/
theorem coverW (i : S4x89700.Idx) :
    ∃ t : Fin cfg0.N, (cfg0.win 11).flush t = true ∧ i ∈ ((cfg0.win 11).blk t).view.set := by
  have hiR : (i 1).val < 89700 := (i 1).isLt
  have hiO : (i 0).val < 4 := (i 0).isLt
  obtain ⟨t, htv⟩ : ∃ t : Fin cfg0.N, t.val = (i 1).val / 2048 := ⟨⟨(i 1).val / 2048, by show _ < 44; omega⟩, rfl⟩
  refine ⟨t, flush0_11 t, ?_⟩
  rw [memW]
  obtain ⟨-, -, -, -, -, -, eO, eR, -⟩ := idx_facts t
  have hr := rows_fact t
  have hs := size_facts t
  intro a
  match a with
  | ⟨1, _⟩ =>
    show win0_11.index t (1 : Fin 2) * 2048 ≤ (i 1).val
      ∧ (i 1).val < win0_11.index t (1 : Fin 2) * 2048 + win0_11.xsize (grid0.coords t) (1 : Fin 2)
    rw [eR, hs.2.2.2.2.2.2.1, hr, htv]
    split <;> omega
  | ⟨0, _⟩ =>
    show win0_11.index t (0 : Fin 2) * 4 ≤ (i 0).val
      ∧ (i 0).val < win0_11.index t (0 : Fin 2) * 4 + win0_11.xsize (grid0.coords t) (0 : Fin 2)
    rw [eO, hs.2.2.2.2.2.1]
    omega

/-- An index of the array is in point `t`'s block iff each coordinate is in the block's range on its axis, cut at the
    array's end. -/
theorem memG (t : Fin cfg0.N) (i : S4x89700.Idx) :
    i ∈ ((cfg0.win 12).blk t).view.set ↔ ∀ a : Fin 2, win0_12.index t a * S4x2048.size a ≤ (i a).val
      ∧ (i a).val < win0_12.index t a * S4x2048.size a + win0_12.xsize (grid0.coords t) a := by
  show i ∈ ((View.whole main_v4_3).slice (win0_12.rect t)).set ↔ _
  rw [View.set_slice_whole, Rect.mem_set_unit]
  exact Iff.rfl

/-- Every index of the array is in the block of the point that works on its row's tile. -/
theorem coverG (i : S4x89700.Idx) :
    ∃ t : Fin cfg0.N, (cfg0.win 12).flush t = true ∧ i ∈ ((cfg0.win 12).blk t).view.set := by
  have hiR : (i 1).val < 89700 := (i 1).isLt
  have hiO : (i 0).val < 4 := (i 0).isLt
  obtain ⟨t, htv⟩ : ∃ t : Fin cfg0.N, t.val = (i 1).val / 2048 := ⟨⟨(i 1).val / 2048, by show _ < 44; omega⟩, rfl⟩
  refine ⟨t, flush0_12 t, ?_⟩
  rw [memG]
  obtain ⟨-, -, -, -, -, -, -, -, eO, eR⟩ := idx_facts t
  have hr := rows_fact t
  have hs := size_facts t
  intro a
  match a with
  | ⟨1, _⟩ =>
    show win0_12.index t (1 : Fin 2) * 2048 ≤ (i 1).val
      ∧ (i 1).val < win0_12.index t (1 : Fin 2) * 2048 + win0_12.xsize (grid0.coords t) (1 : Fin 2)
    rw [eR, hs.2.2.2.2.2.2.2.2, hr, htv]
    split <;> omega
  | ⟨0, _⟩ =>
    show win0_12.index t (0 : Fin 2) * 4 ≤ (i 0).val
      ∧ (i 0).val < win0_12.index t (0 : Fin 2) * 4 + win0_12.xsize (grid0.coords t) (0 : Fin 2)
    rw [eO, hs.2.2.2.2.2.2.2.1]
    omega

/-! ## The arrays after the last write-back -/

theorem finalEdge (c : Dev nD) : (dats m 0 c).arrAt 9 cfg0.N = edgeA m c :=
  (dats m 0 c).arrAt_eq_of_cover 9 (edgeA m c) (fun t _ => flushedEdge m c t) coverEdge
theorem finalType (c : Dev nD) : (dats m 0 c).arrAt 10 cfg0.N = typeA m c :=
  (dats m 0 c).arrAt_eq_of_cover 10 (typeA m c) (fun t _ => flushedType m c t) coverType
theorem finalW (c : Dev nD) : (dats m 0 c).arrAt 11 cfg0.N = wA m c :=
  (dats m 0 c).arrAt_eq_of_cover 11 (wA m c) (fun t _ => flushedW m c t) coverW
theorem finalG (c : Dev nD) : (dats m 0 c).arrAt 12 cfg0.N = gA m c :=
  (dats m 0 c).arrAt_eq_of_cover 12 (gA m c) (fun t _ => flushedG m c t) coverG

/-- THE RUN OF THE IDEALIZED KERNEL: every weakly fair execution terminates with the weights, the gated weights, the type
    probabilities and the edge embeddings at the specification's arrays of the arguments, and the arguments unchanged. -/
theorem kernel_run : θ_run defs (onTc (τ := τ) (main (F := Ideal))) ⟨m, fun _ => 0, ρ⟩ (fun r => ∀ c : Dev nD,
      r.2.mem ((c.tc : Thread nD τ).loc main_v4_2) = wA m c
      ∧ r.2.mem ((c.tc : Thread nD τ).loc main_v4_3) = gA m c
      ∧ r.2.mem ((c.tc : Thread nD τ).loc main_v4_1) = typeA m c
      ∧ r.2.mem ((c.tc : Thread nD τ).loc main_v4_0) = edgeA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).1 11).trans (finalW m c), ((h c).1 12).trans (finalG m c), ((h c).1 10).trans (finalType m c),
      ((h c).1 9).trans (finalEdge m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c),
      ((h c).1 5).trans (((dats m 0 c).arrAt_in 5 rfl _).trans ((A_eq m c 5).trans (V_main_arg6 m c))),
      ((h c).2 main_arg7 (Pipeline.mem_restRefs_of main_arg7 (by decide) (by decide))).trans (V_main_arg7 m c),
      ((h c).1 7).trans (((dats m 0 c).arrAt_in 7 rfl _).trans ((A_eq m c 7).trans (V_main_arg8 m c))),
      ((h c).2 main_arg9 (Pipeline.mem_restRefs_of main_arg9 (by decide) (by decide))).trans (V_main_arg9 m c)⟩)
    (run_main m ρ)

end Cert.KernelIdeal.Finals

end
-- ==== Proof.RefValue.lean ====
import proofs.«174127_j84610855731459_2_alg».proof.Proof.RefRead
import proofs.«174127_j84610855731459_2_alg».proof.Proof.Spec

/-
  The reference program's four result stages, each read at an index, are the specification's
  arrays. Row `r` of every stage depends on row `r` of the features only: the first network's
  output at (r, j) is a sum over its 512 hidden units; the second network's four logits at row r
  are sums over 128 hidden units of sums over the 512 embedding features; the softmax divides the
  exponential of a logit less the row's maximum by the sum of the four exponentials; the weights
  array is the four probability columns laid as rows, the first complemented; the gated weights
  pass each weight through the clamp.
-/

noncomputable section

namespace Cert.RefValue

open Cert.ReferenceIdeal Cert.ReferenceIdeal.Gen Cert.ReferenceIdeal.ReadP Idealize.ShloMosaic Idealize.ShloMosaic.ValueIdx
open Cert.LinkSpec (lin relu mlp rowMax softmax weights gate edgeRow typeRow edgeEmbed typeOutput typesW multiW)

variable (x1 : (⟨S89700x512, .f32⟩ : BufTy).Contents (Elt Ideal)) (x2 : (⟨S512x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal)) (x6 : (⟨S512x128, .f32⟩ : BufTy).Contents (Elt Ideal)) (x7 : (⟨S128, .f32⟩ : BufTy).Contents (Elt Ideal))
  (x8 : (⟨S128x4, .f32⟩ : BufTy).Contents (Elt Ideal)) (x9 : (⟨S4, .f32⟩ : BufTy).Contents (Elt Ideal))

/-! ## The first network: the edge embedding -/

theorem lidx_v0 (r : Fin 89700) (k l : Fin 512) :
    lidx_main_v0 (ix2 r k) l = ix2 r l :=
  funext fun b => Fin.ext (by match b with | ⟨0, _⟩ => rfl | ⟨1, _⟩ => rfl)
theorem ridx_v0 (r : Fin 89700) (k l : Fin 512) :
    ridx_main_v0 (ix2 r k) l = ix2 l k :=
  funext fun b => Fin.ext (by match b with | ⟨0, _⟩ => rfl | ⟨1, _⟩ => rfl)
theorem idx_v2 (r : Fin 89700) (k : Fin 512) :
    idx_main_v1 (idx_main_v2 (ix2 r k)) = ix1 k :=
  funext fun b => Fin.ext (by match b with | ⟨0, _⟩ => rfl)
theorem lidx_v5 (r : Fin 89700) (j k : Fin 512) :
    lidx_main_v5 (ix2 r j) k = ix2 r k :=
  funext fun b => Fin.ext (by match b with | ⟨0, _⟩ => rfl | ⟨1, _⟩ => rfl)
theorem ridx_v5 (r : Fin 89700) (j k : Fin 512) :
    ridx_main_v5 (ix2 r j) k = ix2 k j :=
  funext fun b => Fin.ext (by match b with | ⟨0, _⟩ => rfl | ⟨1, _⟩ => rfl)
theorem idx_v7 (r : Fin 89700) (j : Fin 512) :
    idx_main_v6 (idx_main_v7 (ix2 r j)) = ix1 j :=
  funext fun b => Fin.ext (by match b with | ⟨0, _⟩ => rfl)

/-- The first network's hidden layer at row `r`, unit `k`: the rectified first linear layer. -/
theorem v4_at (r : Fin 89700) (k : Fin 512) :
    val_main_v4 (F := Ideal) x1 x2 x3 (ix2 r k)
      = relu (lin (fun l => x1 (ix2 r l)) (fun l k => x2 (ix2 l k)) (fun k => x3 (ix1 k)) k) := by
  rw [val_main_v4_apply, val_main_v3_apply, val_main_v0_apply, val_main_v2_apply, val_main_v1_apply,
    val_main_call0_v0_apply, val_main_call0_cst_apply]
  simp only [lidx_v0, ridx_v0, idx_v2, relu, lin, Ideal.addf_def, Ideal.maximumf_def, Ideal.ofBits_def]

/-- The edge embedding at row `r`, feature `j`. -/
theorem v8_at (r : Fin 89700) (j : Fin 512) :
    val_main_v8 (F := Ideal) x1 x2 x3 x4 x5 (ix2 r j) = edgeRow x1 x2 x3 x4 x5 r j := by
  rw [val_main_v8_apply, val_main_v5_apply, val_main_v7_apply, val_main_v6_apply]
  simp only [lidx_v5, ridx_v5, idx_v7, v4_at, edgeRow, mlp, lin, Ideal.addf_def]

theorem edge_eq : val_main_v8 (F := Ideal) x1 x2 x3 x4 x5 = edgeEmbed x1 x2 x3 x4 x5 := by
  funext i
  obtain ⟨r, j, rfl⟩ : ∃ (r : Fin 89700) (j : Fin 512), i = ix2 r j := ⟨i 0, i 1, eq_ix2 i⟩
  exact v8_at x1 x2 x3 x4 x5 r j

/-! ## The second network: the four logits of a row -/

theorem lidx_v9 (r : Fin 89700) (k : Fin 128) (l : Fin 512) :
    lidx_main_v9 (ix2 r k) l = ix2 r l :=
  funext fun b => Fin.ext (by match b with | ⟨0, _⟩ => rfl | ⟨1, _⟩ => rfl)
theorem ridx_v9 (r : Fin 89700) (k : Fin 128) (l : Fin 512) :
    ridx_main_v9 (ix2 r k) l = ix2 l k :=
  funext fun b => Fin.ext (by match b with | ⟨0, _⟩ => rfl | ⟨1, _⟩ => rfl)
theorem idx_v11 (r : Fin 89700) (k : Fin 128) :
    idx_main_v10 (idx_main_v11 (ix2 r k)) = ix1 k :=
  funext fun b => Fin.ext (by match b with | ⟨0, _⟩ => rfl)
theorem lidx_v14 (r : Fin 89700) (a : Fin 4) (k : Fin 128) :
    lidx_main_v14 (ix2 r a) k = ix2 r k :=
  funext fun b => Fin.ext (by match b with | ⟨0, _⟩ => rfl | ⟨1, _⟩ => rfl)
theorem ridx_v14 (r : Fin 89700) (a : Fin 4) (k : Fin 128) :
    ridx_main_v14 (ix2 r a) k = ix2 k a :=
  funext fun b => Fin.ext (by match b with | ⟨0, _⟩ => rfl | ⟨1, _⟩ => rfl)
theorem idx_v16 (r : Fin 89700) (a : Fin 4) :
    idx_main_v15 (idx_main_v16 (ix2 r a)) = ix1 a :=
  funext fun b => Fin.ext (by match b with | ⟨0, _⟩ => rfl)

/-- The four logits of row `r`: the second network applied to the row's edge embedding. -/
abbrev logits (r : Fin 89700) : Fin 4 → EReal :=
  mlp (edgeRow x1 x2 x3 x4 x5 r) (fun l k => x6 (ix2 l k)) (fun k => x7 (ix1 k))
    (fun k a => x8 (ix2 k a)) (fun a => x9 (ix1 a))

/-- The second network's hidden layer at row `r`, unit `k`. -/
theorem v13_at (r : Fin 89700) (k : Fin 128) :
    val_main_v13 (F := Ideal) x1 x2 x3 x4 x5 x6 x7 (ix2 r k)
      = relu (lin (edgeRow x1 x2 x3 x4 x5 r) (fun l k => x6 (ix2 l k)) (fun k => x7 (ix1 k)) k) := by
  rw [val_main_v13_apply, val_main_v12_apply, val_main_v9_apply, val_main_v11_apply, val_main_v10_apply,
    val_main_call1_v0_apply, val_main_call1_cst_apply]
  simp only [lidx_v9, ridx_v9, idx_v11, v8_at, relu, lin, Ideal.addf_def, Ideal.maximumf_def, Ideal.ofBits_def]

/-- The logits at row `r`, channel `a`. -/
theorem v17_at (r : Fin 89700) (a : Fin 4) :
    val_main_v17 (F := Ideal) x1 x2 x3 x4 x5 x6 x7 x8 x9 (ix2 r a) = logits x1 x2 x3 x4 x5 x6 x7 x8 x9 r a := by
  rw [val_main_v17_apply, val_main_v14_apply, val_main_v16_apply, val_main_v15_apply]
  simp only [lidx_v14, ridx_v14, idx_v16, v13_at, logits, mlp, lin, relu, Ideal.addf_def]

/-! ## The softmax -/

/-- The index of the [89700, 4] array that drops to row `r` with channel `a` inserted is (r, a). -/
theorem lift_row (h : S89700x4.Reduces [1] S89700) (r : Fin 89700) (a : Fin 4) :
    h.lift (ix1 r) a = ix2 r a :=
  funext fun b => Fin.ext (by match b with | ⟨0, _⟩ => rfl | ⟨1, _⟩ => rfl)

/-- The reduction with a maximum body over the channel axis, at row `r`: the fold of `max` from `-∞`
    over the row's four logits. -/
theorem v18_at (r : Fin 89700) :
    val_main_v18 (F := Ideal) x1 x2 x3 x4 x5 x6 x7 x8 x9 (ix1 r)
      = (Finset.univ : Finset (Fin 4)).fold max Cert.LinkSpec.negInf (logits x1 x2 x3 x4 x5 x6 x7 x8 x9 r) := by
  have h : S89700x4.Reduces [1] S89700 := by decide
  unfold val_main_v18
  rw [Host.reduce_eq_fold_single (FloatOps.maximumf (F := Ideal) (φ := .f32)) _ _ reducesTo_S89700x4_S89700_d1 h h_S_ (ix1 r)]
  have hz : val_main_v17 (F := Ideal) x1 x2 x3 x4 x5 x6 x7 x8 x9 ∘ h.lift (ix1 r) = logits x1 x2 x3 x4 x5 x6 x7 x8 x9 r := by
    funext a
    show val_main_v17 (F := Ideal) x1 x2 x3 x4 x5 x6 x7 x8 x9 (h.lift (ix1 r) a) = _
    rw [lift_row h r a]
    exact v17_at x1 x2 x3 x4 x5 x6 x7 x8 x9 r a
  rw [hz]
  rfl

theorem idx_v22 (r : Fin 89700) (a : Fin 4) :
    idx_main_v21 (idx_main_v22 (ix2 r a)) = ix1 r :=
  funext fun b => Fin.ext (by match b with | ⟨0, _⟩ => rfl)
theorem idx_v25 (r : Fin 89700) (k : Fin 4) :
    idx_main_v25 (ix1 r) k = ix2 r k :=
  funext fun b => Fin.ext (by match b with | ⟨0, _⟩ => rfl | ⟨1, _⟩ => rfl)
theorem idx_v27 (r : Fin 89700) (a : Fin 4) :
    idx_main_v26 (idx_main_v27 (ix2 r a)) = ix1 r :=
  funext fun b => Fin.ext (by match b with | ⟨0, _⟩ => rfl)

/-- The row maximum the softmax subtracts. -/
theorem v20_at (r : Fin 89700) :
    val_main_v20 (F := Ideal) x1 x2 x3 x4 x5 x6 x7 x8 x9 (ix1 r) = rowMax (logits x1 x2 x3 x4 x5 x6 x7 x8 x9 r) := by
  rw [val_main_v20_apply, val_main_v19_apply, val_main_cst_0_apply, v18_at]
  rfl

/-- The exponential of a logit less the row maximum. -/
theorem v24_at (r : Fin 89700) (a : Fin 4) :
    val_main_v24 (F := Ideal) x1 x2 x3 x4 x5 x6 x7 x8 x9 (ix2 r a)
      = Ideal.exp (logits x1 x2 x3 x4 x5 x6 x7 x8 x9 r a - rowMax (logits x1 x2 x3 x4 x5 x6 x7 x8 x9 r)) := by
  rw [val_main_v24_apply, val_main_v23_apply, val_main_v22_apply, val_main_v21_apply, idx_v22, v20_at, v17_at]
  rfl

/-- The sum of the four exponentials of row `r` (the sum starts from the zero word, which is `0`). -/
theorem v25_at (r : Fin 89700) :
    val_main_v25 (F := Ideal) x1 x2 x3 x4 x5 x6 x7 x8 x9 (ix1 r)
      = ∑ b : Fin 4, Ideal.exp (logits x1 x2 x3 x4 x5 x6 x7 x8 x9 r b - rowMax (logits x1 x2 x3 x4 x5 x6 x7 x8 x9 r)) := by
  rw [val_main_v25_apply, val_main_cst_1_apply]
  simp only [idx_v25, v24_at, Ideal.ofBits_def, Ideal.ofBits_zero_f32, zero_add]

/-- The type probabilities at row `r`, channel `a`. -/
theorem v28_at (r : Fin 89700) (a : Fin 4) :
    val_main_v28 (F := Ideal) x1 x2 x3 x4 x5 x6 x7 x8 x9 (ix2 r a) = typeRow x1 x2 x3 x4 x5 x6 x7 x8 x9 r a := by
  rw [val_main_v28_apply, val_main_v27_apply, val_main_v26_apply, idx_v27, v25_at, v24_at]
  rfl

theorem type_eq : val_main_v28 (F := Ideal) x1 x2 x3 x4 x5 x6 x7 x8 x9 = typeOutput x1 x2 x3 x4 x5 x6 x7 x8 x9 := by
  funext i
  obtain ⟨r, a, rfl⟩ : ∃ (r : Fin 89700) (a : Fin 4), i = ix2 r a := ⟨i 0, i 1, eq_ix2 i⟩
  exact v28_at x1 x2 x3 x4 x5 x6 x7 x8 x9 r a

/-! ## The weights: the probability columns laid as rows, the first complemented -/

theorem idx_v30 (r : Fin 89700) :
    idx_main_v29 (idx_main_v30 (ix1 r)) = ix2 r 0 :=
  funext fun b => Fin.ext (by match b with | ⟨0, _⟩ => exact Nat.div_one _ | ⟨1, _⟩ => rfl)
theorem idx_v34 (r : Fin 89700) :
    idx_main_v33 (idx_main_v34 (ix1 r)) = ix2 r 1 :=
  funext fun b => Fin.ext (by match b with | ⟨0, _⟩ => exact Nat.div_one _ | ⟨1, _⟩ => rfl)
theorem idx_v36 (r : Fin 89700) :
    idx_main_v35 (idx_main_v36 (ix1 r)) = ix2 r 2 :=
  funext fun b => Fin.ext (by match b with | ⟨0, _⟩ => exact Nat.div_one _ | ⟨1, _⟩ => rfl)
theorem idx_v38 (r : Fin 89700) :
    idx_main_v37 (idx_main_v38 (ix1 r)) = ix2 r 3 :=
  funext fun b => Fin.ext (by match b with | ⟨0, _⟩ => exact Nat.div_one _ | ⟨1, _⟩ => rfl)
theorem idx_v39 (r : Fin 89700) :
    idx_main_v39 (ix2 (0 : Fin 1) r) = ix1 r :=
  funext fun b => Fin.ext (by match b with | ⟨0, _⟩ => rfl)
theorem idx_v40 (r : Fin 89700) :
    idx_main_v40 (ix2 (0 : Fin 1) r) = ix1 r :=
  funext fun b => Fin.ext (by match b with | ⟨0, _⟩ => rfl)
theorem idx_v41 (r : Fin 89700) :
    idx_main_v41 (ix2 (0 : Fin 1) r) = ix1 r :=
  funext fun b => Fin.ext (by match b with | ⟨0, _⟩ => rfl)
theorem idx_v42 (r : Fin 89700) :
    idx_main_v42 (ix2 (0 : Fin 1) r) = ix1 r :=
  funext fun b => Fin.ext (by match b with | ⟨0, _⟩ => rfl)

/-- Column 0 of the probabilities, complemented. -/
theorem v32_at (r : Fin 89700) :
    val_main_v32 (F := Ideal) x1 x2 x3 x4 x5 x6 x7 x8 x9 (ix1 r) = Cert.LinkSpec.one - typeRow x1 x2 x3 x4 x5 x6 x7 x8 x9 r 0 := by
  rw [val_main_v32_apply, val_main_v31_apply, val_main_cst_2_apply, val_main_v30_apply, val_main_v29_apply,
    idx_v30, v28_at]
  rfl
theorem v34_at (r : Fin 89700) :
    val_main_v34 (F := Ideal) x1 x2 x3 x4 x5 x6 x7 x8 x9 (ix1 r) = typeRow x1 x2 x3 x4 x5 x6 x7 x8 x9 r 1 := by
  rw [val_main_v34_apply, val_main_v33_apply, idx_v34, v28_at]
theorem v36_at (r : Fin 89700) :
    val_main_v36 (F := Ideal) x1 x2 x3 x4 x5 x6 x7 x8 x9 (ix1 r) = typeRow x1 x2 x3 x4 x5 x6 x7 x8 x9 r 2 := by
  rw [val_main_v36_apply, val_main_v35_apply, idx_v36, v28_at]
theorem v38_at (r : Fin 89700) :
    val_main_v38 (F := Ideal) x1 x2 x3 x4 x5 x6 x7 x8 x9 (ix1 r) = typeRow x1 x2 x3 x4 x5 x6 x7 x8 x9 r 3 := by
  rw [val_main_v38_apply, val_main_v37_apply, idx_v38, v28_at]

theorem v39_at (r : Fin 89700) :
    val_main_v39 (F := Ideal) x1 x2 x3 x4 x5 x6 x7 x8 x9 (ix2 (0 : Fin 1) r) = Cert.LinkSpec.one - typeRow x1 x2 x3 x4 x5 x6 x7 x8 x9 r 0 := by
  rw [val_main_v39_apply, idx_v39, v32_at]
theorem v40_at (r : Fin 89700) :
    val_main_v40 (F := Ideal) x1 x2 x3 x4 x5 x6 x7 x8 x9 (ix2 (0 : Fin 1) r) = typeRow x1 x2 x3 x4 x5 x6 x7 x8 x9 r 1 := by
  rw [val_main_v40_apply, idx_v40, v34_at]
theorem v41_at (r : Fin 89700) :
    val_main_v41 (F := Ideal) x1 x2 x3 x4 x5 x6 x7 x8 x9 (ix2 (0 : Fin 1) r) = typeRow x1 x2 x3 x4 x5 x6 x7 x8 x9 r 2 := by
  rw [val_main_v41_apply, idx_v41, v36_at]
theorem v42_at (r : Fin 89700) :
    val_main_v42 (F := Ideal) x1 x2 x3 x4 x5 x6 x7 x8 x9 (ix2 (0 : Fin 1) r) = typeRow x1 x2 x3 x4 x5 x6 x7 x8 x9 r 3 := by
  rw [val_main_v42_apply, idx_v42, v38_at]

section Concat

variable {α : Type} (y0 y1 y2 y3 : S1x89700.Idx → α)
  (hc : Shape.Concatenates [S1x89700, S1x89700, S1x89700, S1x89700] S4x89700 0)

/-! Four [1, 89700] rows joined along the first axis: row `k` of the result is piece `k`. -/
theorem concat4_at0 (r : Fin 89700) :
    concatenate S4x89700 0 [⟨S1x89700, y0⟩, ⟨S1x89700, y1⟩, ⟨S1x89700, y2⟩, ⟨S1x89700, y3⟩] hc (ix2 (0 : Fin 4) r)
      = y0 (ix2 (0 : Fin 1) r) :=
  concatenate_apply_piece (0 : Fin S4x89700.rank) [⟨S1x89700, y0⟩, ⟨S1x89700, y1⟩, ⟨S1x89700, y2⟩, ⟨S1x89700, y3⟩] hc
    (ix2 (0 : Fin 4) r) 0 (show 0 < 4 by decide) S1x89700 y0 rfl rfl 0 rfl (ix2 (0 : Fin 1) r)
    (fun b hb => by match b with | ⟨0, _⟩ => exact absurd (Fin.ext rfl) hb | ⟨1, _⟩ => rfl) rfl
theorem concat4_at1 (r : Fin 89700) :
    concatenate S4x89700 0 [⟨S1x89700, y0⟩, ⟨S1x89700, y1⟩, ⟨S1x89700, y2⟩, ⟨S1x89700, y3⟩] hc (ix2 (1 : Fin 4) r)
      = y1 (ix2 (0 : Fin 1) r) :=
  concatenate_apply_piece (0 : Fin S4x89700.rank) [⟨S1x89700, y0⟩, ⟨S1x89700, y1⟩, ⟨S1x89700, y2⟩, ⟨S1x89700, y3⟩] hc
    (ix2 (1 : Fin 4) r) 1 (show 1 < 4 by decide) S1x89700 y1 rfl rfl 1 rfl (ix2 (0 : Fin 1) r)
    (fun b hb => by match b with | ⟨0, _⟩ => exact absurd (Fin.ext rfl) hb | ⟨1, _⟩ => rfl) rfl
theorem concat4_at2 (r : Fin 89700) :
    concatenate S4x89700 0 [⟨S1x89700, y0⟩, ⟨S1x89700, y1⟩, ⟨S1x89700, y2⟩, ⟨S1x89700, y3⟩] hc (ix2 (2 : Fin 4) r)
      = y2 (ix2 (0 : Fin 1) r) :=
  concatenate_apply_piece (0 : Fin S4x89700.rank) [⟨S1x89700, y0⟩, ⟨S1x89700, y1⟩, ⟨S1x89700, y2⟩, ⟨S1x89700, y3⟩] hc
    (ix2 (2 : Fin 4) r) 2 (show 2 < 4 by decide) S1x89700 y2 rfl rfl 2 rfl (ix2 (0 : Fin 1) r)
    (fun b hb => by match b with | ⟨0, _⟩ => exact absurd (Fin.ext rfl) hb | ⟨1, _⟩ => rfl) rfl
theorem concat4_at3 (r : Fin 89700) :
    concatenate S4x89700 0 [⟨S1x89700, y0⟩, ⟨S1x89700, y1⟩, ⟨S1x89700, y2⟩, ⟨S1x89700, y3⟩] hc (ix2 (3 : Fin 4) r)
      = y3 (ix2 (0 : Fin 1) r) :=
  concatenate_apply_piece (0 : Fin S4x89700.rank) [⟨S1x89700, y0⟩, ⟨S1x89700, y1⟩, ⟨S1x89700, y2⟩, ⟨S1x89700, y3⟩] hc
    (ix2 (3 : Fin 4) r) 3 (show 3 < 4 by decide) S1x89700 y3 rfl rfl 3 rfl (ix2 (0 : Fin 1) r)
    (fun b hb => by match b with | ⟨0, _⟩ => exact absurd (Fin.ext rfl) hb | ⟨1, _⟩ => rfl) rfl

end Concat

/-- The weights at channel `a`, row `r`. -/
theorem v43_at (a : Fin 4) (r : Fin 89700) :
    val_main_v43 (F := Ideal) x1 x2 x3 x4 x5 x6 x7 x8 x9 (ix2 a r) = weights (typeRow x1 x2 x3 x4 x5 x6 x7 x8 x9 r) a := by
  unfold val_main_v43
  match a with
  | ⟨0, _⟩ => exact (concat4_at0 _ _ _ _ _ r).trans ((v39_at x1 x2 x3 x4 x5 x6 x7 x8 x9 r).trans (if_pos rfl).symm)
  | ⟨1, _⟩ => exact (concat4_at1 _ _ _ _ _ r).trans ((v40_at x1 x2 x3 x4 x5 x6 x7 x8 x9 r).trans (if_neg (show (1 : Nat) ≠ 0 by decide)).symm)
  | ⟨2, _⟩ => exact (concat4_at2 _ _ _ _ _ r).trans ((v41_at x1 x2 x3 x4 x5 x6 x7 x8 x9 r).trans (if_neg (show (2 : Nat) ≠ 0 by decide)).symm)
  | ⟨3, _⟩ => exact (concat4_at3 _ _ _ _ _ r).trans ((v42_at x1 x2 x3 x4 x5 x6 x7 x8 x9 r).trans (if_neg (show (3 : Nat) ≠ 0 by decide)).symm)

theorem typesW_eq : val_main_v43 (F := Ideal) x1 x2 x3 x4 x5 x6 x7 x8 x9 = typesW x1 x2 x3 x4 x5 x6 x7 x8 x9 := by
  funext i
  obtain ⟨a, r, rfl⟩ : ∃ (a : Fin 4) (r : Fin 89700), i = ix2 a r := ⟨i 0, i 1, eq_ix2 i⟩
  exact v43_at x1 x2 x3 x4 x5 x6 x7 x8 x9 a r

/-! ## The gated weights -/

/-- The clamp of the weights, at any index. -/
theorem v53_at (i : S4x89700.Idx) :
    val_main_v53 (F := Ideal) x1 x2 x3 x4 x5 x6 x7 x8 x9 i = gate (val_main_v43 (F := Ideal) x1 x2 x3 x4 x5 x6 x7 x8 x9 i) := by
  rw [val_main_v53_apply, val_main_v45_apply, val_main_v44_apply, val_main_cst_3_apply,
    val_main_call3_v1_apply, val_main_call3_v0_apply, val_main_cst_8_apply,
    val_main_v52_apply, val_main_v47_apply, val_main_v46_apply, val_main_cst_4_apply,
    val_main_call2_v1_apply, val_main_call2_v0_apply, val_main_cst_7_apply,
    val_main_v51_apply, val_main_v50_apply, val_main_cst_6_apply, val_main_v49_apply, val_main_v48_apply,
    val_main_cst_5_apply]
  rfl

theorem multiW_eq : val_main_v53 (F := Ideal) x1 x2 x3 x4 x5 x6 x7 x8 x9 = multiW x1 x2 x3 x4 x5 x6 x7 x8 x9 := by
  funext i
  rw [v53_at, typesW_eq]
  rfl

end Cert.RefValue

end
-- ==== Proof.RefResults.lean ====
/-
  The reference's run, its four results read as the specification's arrays.

  The reference is a straight line of host operations; its run ends with each result at the
  operations' composed term of the arguments. Read one operation at a time and at one index,
  those terms are the specification's four arrays of the argument arrays: the edge embeddings,
  the type probabilities, the weights and the gated weights.
-/
import proofs.«174127_j84610855731459_2_alg».proof.Proof.RefValue

noncomputable section

namespace Cert.RefResults

open Cert.ReferenceIdeal Cert.ReferenceIdeal.Gen Cert.LinkSpec
open Idealize.ShloMosaic Idealize.ShloMosaic.TcCoe Idealize.SL.Sem

variable (m : (ℓ : Loc nD τ sig) → Buf (Elt Ideal) ℓ) (ρ : Dev nD → PrngReg)

/-- THE RUN OF THE IDEALIZED REFERENCE: every weakly fair execution terminates with the weights, the gated weights, the
    type probabilities and the edge embeddings at the specification's arrays of the arguments, and the arguments
    unchanged. -/
theorem reference_run : θ_run (defs (F := Ideal)) (onTc (τ := τ) (main (F := Ideal))) ⟨m, fun _ => 0, ρ⟩ (fun r => ∀ c : Dev nD,
      r.2.mem ((c.tc : Thread nD τ).loc main_v43) = typesW (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v53) = multiW (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v28) = typeOutput (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v8) = edgeEmbed (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c).1.trans ((Cert.ReferenceIdeal.ReadP.val_main_v43_eq m c).trans (Cert.RefValue.typesW_eq _ _ _ _ _ _ _ _ _)),
      (h c).2.1.trans ((Cert.ReferenceIdeal.ReadP.val_main_v53_eq m c).trans (Cert.RefValue.multiW_eq _ _ _ _ _ _ _ _ _)),
      (h c).2.2.1.trans ((Cert.ReferenceIdeal.ReadP.val_main_v28_eq m c).trans (Cert.RefValue.type_eq _ _ _ _ _ _ _ _ _)),
      (h c).2.2.2.1.trans ((Cert.ReferenceIdeal.ReadP.val_main_v8_eq _ _ _ _ _).trans (Cert.RefValue.edge_eq _ _ _ _ _)),
      (h c).2.2.2.2⟩)
    (Cert.ReferenceIdeal.ValueP.run (F := Ideal) m ρ)

/-- The reference's frame is its run with the results dropped. -/
theorem reference_frame : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2.2.2.2) (Cert.ReferenceIdeal.ValueP.run (F := Ideal) m ρ)

end Cert.RefResults

end
-- ==== Proof.lean ====
/-
  The certificate: a tiled kernel for two stacked two-layer networks, a softmax and a gate,
  against its plain reference, over the extended reals.

  The kernel walks 44 tiles of 2048 feature rows (the last one overhanging the 89700-row array),
  and for each tile computes the edge embeddings (512 → 512 → 512 with a rectifier), from them
  the type logits (512 → 128 → 4), their softmax, and, transposed to channel-major, the weights
  (channel 0 complemented) and the gated weights (a clamp with a linear ramp). The reference
  computes the same four arrays with whole-array operations.

  Both programs are read against one specification (Spec.lean), a function of one feature row
  and the weight arrays. The kernel side: the body's triple (Body.lean), the pipeline's proof
  data, body obligation and frame (Tiles.lean; the word-level program's in BodyBits.lean and
  TilesBits.lean), the stored values at an index (Payload.lean, Rows.lean), the value run with
  the overhanging tile's rows past the array's end shown harmless (Blocks.lean), and the blocks
  put together into the four arrays (Arrays.lean, Finals.lean). The reference side: its run and
  its operations read at an index (RefRun.lean, RefRead.lean), each result equal to the
  specification's array (RefValue.lean, RefResults.lean). No law of arithmetic beyond the
  definitions joins the two sides: both compute the same sums, maxima and quotients in the same
  order, so the precondition (finite inputs) is never opened.
-/
import proofs.«174127_j84610855731459_2_alg».proof.Defs
import proofs.«174127_j84610855731459_2_alg».proof.Proof.Gen.Kernel
import proofs.«174127_j84610855731459_2_alg».proof.Proof.Gen.KernelIdeal
import proofs.«174127_j84610855731459_2_alg».proof.Proof.Gen.ReferenceIdeal
import proofs.«174127_j84610855731459_2_alg».proof.Proof.Gen.Pre_finite_inputs
import proofs.«174127_j84610855731459_2_alg».proof.Proof.TilesBits
import proofs.«174127_j84610855731459_2_alg».proof.Proof.Finals
import proofs.«174127_j84610855731459_2_alg».proof.Proof.RefResults
import Idealize.ShloMosaic.Adequacy
import Idealize.ShloMosaic.Init

noncomputable section

namespace Cert.Proof

open Idealize.ShloMosaic Idealize.SL.Sem

/-- The word-level kernel terminates, faults nowhere and leaves its arguments unchanged. -/
theorem frame_kernel : Cert.frame_Kernel := fun m ρ _ => Cert.Kernel.Tiles.frame m ρ

/-- So does the idealized kernel. -/
theorem frame_kernelIdeal : Cert.frame_KernelIdeal := fun m ρ _ => Cert.KernelIdeal.Tiles.frame m ρ

/-- So does the idealized reference. -/
theorem frame_referenceIdeal : Cert.frame_ReferenceIdeal := fun m ρ _ => Cert.RefResults.reference_frame m ρ

/-- The idealization applied no rewrite: nothing to preserve. -/
theorem preserves : Cert.preserves_Kernel_KernelIdeal := trivial

/-- Run from memories that agree on the arguments, the idealized kernel and the idealized reference both end, with the
    same four arrays: the specification's, of the same arguments. -/
theorem algebraic : Cert.algebraic_KernelIdeal_ReferenceIdeal := by
  intro m ρ m' ρ' _ hagree
  refine ⟨fun c => Cert.KernelIdeal.Arrays.wA m c, fun c => Cert.KernelIdeal.Arrays.gA m c,
    fun c => Cert.KernelIdeal.Arrays.typeA m c, fun c => Cert.KernelIdeal.Arrays.edgeA m c,
    Cert.KernelIdeal.Finals.kernel_run m ρ, ?_⟩
  refine (θ_run Cert.ReferenceIdeal.defs _ _).mono (fun r h c => ?_) (Cert.RefResults.reference_run m' ρ')
  obtain ⟨-, a1, a2, a3, a4, a5, a6, a7, a8, a9⟩ := hagree c
  obtain ⟨h43, h53, h28, h8, hk⟩ := h c
  refine ⟨h43.trans ?_, h53.trans ?_, h28.trans ?_, h8.trans ?_, hk⟩
  · rw [a1, a2, a3, a4, a5, a6, a7, a8, a9]; rfl
  · rw [a1, a2, a3, a4, a5, a6, a7, a8, a9]; rfl
  · rw [a1, a2, a3, a4, a5, a6, a7, a8, a9]; rfl
  · rw [a1, a2, a3, a4, a5]; rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
